-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4x1024 : Shape := ⟨4, ![4, 2048, 4, 1024]⟩
abbrev S4x1024 : Shape := ⟨2, ![4, 1024]⟩
abbrev S4096x4 : Shape := ⟨2, ![4096, 4]⟩
abbrev S_ : Shape := ⟨0, ![]⟩

class Facts : Prop where
  bcast_S_S4x2048x4x1024 : S_.BroadcastsInDim S4x2048x4x1024 (![] : Fin 0 → Fin S4x2048x4x1024.rank)
  reducesTo_S4x2048x4x1024_S_d0_1_2_3 : S4x2048x4x1024.ReducesTo [0, 1, 2, 3] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S4096x4 : S_.BroadcastsInDim S4096x4 (![] : Fin 0 → Fin S4096x4.rank)
  reducesTo_S4096x4_S_d0_1 : S4096x4.ReducesTo [0, 1] S_

variable [Facts]

def fn {F : FTy → Type} [FloatOps F] (main_arg0 : FVec F S4x2048x4x1024 .f32) (main_arg1 : FVec F S4x1024 .f32) (main_arg2 : FVec F S4096x4 .f32) : IVec S_ 1 :=
  let main_v0 : FVec F S4x2048x4x1024 .f32 := Host.absf main_arg0
  let main_cst : FVec F S_ .f32 := constant S_ .f32 0x7F800000#32
  let main_v1 : FVec F S4x2048x4x1024 .f32 := broadcastInDim S4x2048x4x1024 ![] bcast_S_S4x2048x4x1024 main_cst
  let main_v2 : IVec S4x2048x4x1024 1 := cmpf .olt main_v0 main_v1
  let main_c : IVec S_ 1 := constantI S_ 1 1#1
  let main_v3 : IVec S_ 1 := (fun x v => Host.reduce IntOp.andi x v reducesTo_S4x2048x4x1024_S_d0_1_2_3 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S4096x4 .f32 := Host.absf main_arg2
  let main_cst_2 : FVec F S_ .f32 := constant S_ .f32 0x7F800000#32
  let main_v10 : FVec F S4096x4 .f32 := broadcastInDim S4096x4 ![] bcast_S_S4096x4 main_cst_2
  let main_v11 : IVec S4096x4 1 := cmpf .olt main_v9 main_v10
  let main_c_3 : IVec S_ 1 := constantI S_ 1 1#1
  let main_v12 : IVec S_ 1 := (fun x v => Host.reduce IntOp.andi x v reducesTo_S4096x4_S_d0_1 h_S_) main_v11 main_c_3
  let main_v13 : IVec S_ 1 := andi main_v8 main_v12
  main_v13
-- ==== Kernel.lean ====
abbrev S4x2048x4x1024 : Shape := ⟨4, ![4, 2048, 4, 1024]⟩
abbrev S4x1024 : Shape := ⟨2, ![4, 1024]⟩
abbrev S4096x4 : Shape := ⟨2, ![4096, 4]⟩
abbrev S4x1024x4 : Shape := ⟨3, ![4, 1024, 4]⟩
abbrev S4x4x1024 : Shape := ⟨3, ![4, 4, 1024]⟩
abbrev S1x256x4x1024 : Shape := ⟨4, ![1, 256, 4, 1024]⟩
abbrev S259x4x1024 : Shape := ⟨3, ![259, 4, 1024]⟩
abbrev S3x4x1024 : Shape := ⟨3, ![3, 4, 1024]⟩
abbrev S1x32x4x1024 : Shape := ⟨4, ![1, 32, 4, 1024]⟩
abbrev S32x4x1024 : Shape := ⟨3, ![32, 4, 1024]⟩
abbrev S32x4 : Shape := ⟨2, ![32, 4]⟩
abbrev S32x4x1 : Shape := ⟨3, ![32, 4, 1]⟩
abbrev S1x4x1024 : Shape := ⟨3, ![1, 4, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4x2048x4x1024, .f32⟩
  | .hbm, ⟨1, _⟩ => ⟨S4x1024, .f32⟩
  | .hbm, ⟨2, _⟩ => ⟨S4096x4, .f32⟩
  | .hbm, ⟨3, _⟩ => ⟨S4x1024x4, .f32⟩
  | .hbm, ⟨4, _⟩ => ⟨S4x4x1024, .f32⟩
  | .hbm, ⟨5, _⟩ => ⟨S4x2048x4x1024, .f32⟩
  | .local _ .vmem, ⟨0, _⟩ => ⟨S1x256x4x1024, .f32⟩
  | .local _ .vmem, ⟨1, _⟩ => ⟨S1x256x4x1024, .f32⟩
  | .local _ .vmem, ⟨2, _⟩ => ⟨S4x1024, .f32⟩
  | .local _ .vmem, ⟨3, _⟩ => ⟨S4x4x1024, .f32⟩
  | .local _ .vmem, ⟨4, _⟩ => ⟨S1x256x4x1024, .f32⟩
  | .local _ .vmem, ⟨5, _⟩ => ⟨S1x256x4x1024, .f32⟩
  | .local _ .vmem, ⟨6, _⟩ => ⟨S259x4x1024, .f32⟩
  | _, _ => ⟨S4x2048x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_2 : BitVec 32 := 0#32
  let c8_i32 : BitVec 32 := 8#32
  let v4 : BitVec 32 := Scalar.addi c0_i32_2 c8_i32
  let c1_i32 : BitVec 32 := 1#32
  ⟨c0_i32_2, v4, c1_i32⟩
def k0_mult1 (k0_t1 : Fin k0_t1_loop.trips) : BitVec 32 :=
  let c0_i32_2 : BitVec 32 := 0#32
  let c1_i32 : BitVec 32 := 1#32
  let arg7 : BitVec 32 := Scf.iv c0_i32_2 c1_i32 k0_t1
  let c32_i32 : BitVec 32 := 32#32
  let v10 : BitVec 32 := Scalar.muli arg7 c32_i32
  v10
def k0_off1 (k0_t1 : Fin k0_t1_loop.trips) : Fin 4 → Nat :=
  let c0_13 : Index := 0#32
  let c0_i32_2 : BitVec 32 := 0#32
  let c1_i32 : BitVec 32 := 1#32
  let arg7 : BitVec 32 := Scf.iv c0_i32_2 c1_i32 k0_t1
  let c32_i32 : BitVec 32 := 32#32
  let v10 : BitVec 32 := Scalar.muli arg7 c32_i32
  let v11 : BitVec 32 := v10
  let v12 : Index := Scalar.indexCast v11
  let c0_14 : Index := 0#32
  let c0_15 : Index := 0#32
  ![0, v12.toNat, 0, 0]
def k0_off2 (k0_t1 : Fin k0_t1_loop.trips) : Fin 3 → Nat :=
  let c3_i32 : BitVec 32 := 3#32
  let c0_i32_2 : BitVec 32 := 0#32
  let c1_i32 : BitVec 32 := 1#32
  let arg7 : BitVec 32 := Scf.iv c0_i32_2 c1_i32 k0_t1
  let c32_i32 : BitVec 32 := 32#32
  let v10 : BitVec 32 := Scalar.muli arg7 c32_i32
  let v11 : BitVec 32 := v10
  let v28 : BitVec 32 := Scalar.addi c3_i32 v11
  let v29 : Index := Scalar.indexCast v28
  let c0_18 : Index := 0#32
  let c0_19 : Index := 0#32
  ![v29.toNat, 0, 0]
@[reducible] def k0_t2_loop : Scf.Loop 32 :=
  let c0_i32_4 : BitVec 32 := 0#32
  let c8_i32_5 : BitVec 32 := 8#32
  let v5 : BitVec 32 := Scalar.addi c0_i32_4 c8_i32_5
  let c1_i32_6 : BitVec 32 := 1#32
  ⟨c0_i32_4, v5, c1_i32_6⟩
def k0_mult2 (k0_t2 : Fin k0_t2_loop.trips) : BitVec 32 :=
  let c0_i32_4 : BitVec 32 := 0#32
  let c1_i32_6 : BitVec 32 := 1#32
  let arg7 : BitVec 32 := Scf.iv c0_i32_4 c1_i32_6 k0_t2
  let c32_i32 : BitVec 32 := 32#32
  let v10 : BitVec 32 := Scalar.muli arg7 c32_i32
  v10
def k0_off3 (k0_t2 : Fin k0_t2_loop.trips) : Fin 3 → Nat :=
  let c0_i32_4 : BitVec 32 := 0#32
  let c1_i32_6 : BitVec 32 := 1#32
  let arg7 : BitVec 32 := Scf.iv c0_i32_4 c1_i32_6 k0_t2
  let c32_i32 : BitVec 32 := 32#32
  let v10 : BitVec 32 := Scalar.muli arg7 c32_i32
  let v11 : BitVec 32 := v10
  let v12 : Index := Scalar.indexCast v11
  let c0_13 : Index := 0#32
  let c0_14 : Index := 0#32
  ![v12.toNat, 0, 0]
def k0_off4 (k0_t2 : Fin k0_t2_loop.trips) (c1_i32_18 : BitVec 32) : Fin 3 → Nat :=
  let c0_i32_4 : BitVec 32 := 0#32
  let c1_i32_6 : BitVec 32 := 1#32
  let arg7 : BitVec 32 := Scf.iv c0_i32_4 c1_i32_6 k0_t2
  let c32_i32 : BitVec 32 := 32#32
  let v10 : BitVec 32 := Scalar.muli arg7 c32_i32
  let v11 : BitVec 32 := v10
  let v19 : BitVec 32 := Scalar.addi v11 c1_i32_18
  let v20 : Index := Scalar.indexCast v19
  let c0_19 : Index := 0#32
  let c0_20 : Index := 0#32
  ![v20.toNat, 0, 0]
def k0_off5 (k0_t2 : Fin k0_t2_loop.trips) : Fin 4 → Nat :=
  let c0_31 : Index := 0#32
  let c0_i32_4 : BitVec 32 := 0#32
  let c1_i32_6 : BitVec 32 := 1#32
  let arg7 : BitVec 32 := Scf.iv c0_i32_4 c1_i32_6 k0_t2
  let c32_i32 : BitVec 32 := 32#32
  let v10 : BitVec 32 := Scalar.muli arg7 c32_i32
  let v11 : BitVec 32 := v10
  let v48 : Index := Scalar.indexCast v11
  let c0_32 : Index := 0#32
  let c0_33 : Index := 0#32
  ![0, v48.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096x4_S4x1024x4 : S4096x4.ShapeCasts S4x1024x4
  transposes_S4x1024x4_S4x4x1024_2_0_1 : S4x1024x4.Transposes [2, 0, 1] S4x4x1024
  inb_S259x4x1024_S3x4x1024_0_0_0 : ∀ a, (![0, 0, 0] : Fin 3 → Nat) a + S3x4x1024.size a ≤ S259x4x1024.size a
  h_S3x4x1024 : 0 < S3x4x1024.numel
  shapeCasts_S3x4x1024_S3x4x1024 : S3x4x1024.ShapeCasts S3x4x1024
  inb_S4x1024_S4x1024_0_0 : ∀ a, (![0, 0] : Fin 2 → Nat) a + S4x1024.size a ≤ S4x1024.size a
  h_S4x1024 : 0 < S4x1024.numel
  h_S1x32x4x1024 : 0 < S1x32x4x1024.numel
  shapeCasts_S1x32x4x1024_S32x4x1024 : S1x32x4x1024.ShapeCasts S32x4x1024
  reduces_S32x4x1024_S32x4 : S32x4x1024.Reduces [2] S32x4
  shapeCasts_S32x4_S32x4x1 : S32x4.ShapeCasts S32x4x1
  broadcasts_S32x4x1_S32x4x1024 : S32x4x1.Broadcasts S32x4x1024
  shapeCasts_S4x1024_S1x4x1024 : S4x1024.ShapeCasts S1x4x1024
  broadcasts_S1x4x1024_S32x4x1024 : S1x4x1024.Broadcasts S32x4x1024
  h_S32x4x1024 : 0 < S32x4x1024.numel
  shapeCasts_S32x4x1024_S32x4x1024 : S32x4x1024.ShapeCasts S32x4x1024
  inb_S4x4x1024_S1x4x1024_0_0_0 : ∀ a, (![0, 0, 0] : Fin 3 → Nat) a + S1x4x1024.size a ≤ S4x4x1024.size a
  h_S1x4x1024 : 0 < S1x4x1024.numel
  shapeCasts_S1x4x1024_S4x1024 : S1x4x1024.ShapeCasts S4x1024
  inb_S4x4x1024_S1x4x1024_1_0_0 : ∀ a, (![1, 0, 0] : Fin 3 → Nat) a + S1x4x1024.size a ≤ S4x4x1024.size a
  inb_S4x4x1024_S1x4x1024_2_0_0 : ∀ a, (![2, 0, 0] : Fin 3 → Nat) a + S1x4x1024.size a ≤ S4x4x1024.size a
  inb_S4x4x1024_S1x4x1024_3_0_0 : ∀ a, (![3, 0, 0] : Fin 3 → Nat) a + S1x4x1024.size a ≤ S4x4x1024.size a
  shapeCasts_S32x4x1024_S1x32x4x1024 : S32x4x1024.ShapeCasts S1x32x4x1024
  inb_S259x4x1024_S3x4x1024_256_0_0 : ∀ a, (![256, 0, 0] : Fin 3 → Nat) a + S3x4x1024.size a ≤ S259x4x1024.size a
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S1x32x4x1024.size a ≤ S1x256x4x1024.size a
  k0_off2_inb : ∀ k0_t1 : Fin k0_t1_loop.trips, ∀ a, (k0_off2 k0_t1) a + S32x4x1024.size a ≤ S259x4x1024.size a
  k0_t2_ok : k0_t2_loop.OK
  k0_mult2_dvd : ∀ k0_t2 : Fin k0_t2_loop.trips, 32 ∣ (k0_mult2 k0_t2).toNat
  k0_off3_inb : ∀ k0_t2 : Fin k0_t2_loop.trips, ∀ a, (k0_off3 k0_t2) a + S32x4x1024.size a ≤ S259x4x1024.size a
  k0_off4_inb : ∀ k0_t2 : Fin k0_t2_loop.trips, ∀ (r : Fin 3), ∀ a, (k0_off4 k0_t2 (BitVec.ofNat 32 (1 + r.val))) a + S32x4x1024.size a ≤ S259x4x1024.size a
  k0_off5_inb : ∀ k0_t2 : Fin k0_t2_loop.trips, ∀ a, (k0_off5 k0_t2) a + S1x32x4x1024.size a ≤ S1x256x4x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4x1024.size a ≤ S4x2048x4x1024.size a
  hwx0_0 : ∀ i : grid0.Coords, EltTy.bits .f32 = 32 ∨ (Rect.block (s := S4x2048x4x1024) S1x256x4x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1024.size a ≤ S4x1024.size a
  hwx0_1 : ∀ i : grid0.Coords, EltTy.bits .f32 = 32 ∨ (Rect.block (s := S4x1024) S4x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x4x1024.size a ≤ S4x4x1024.size a
  hwx0_2 : ∀ i : grid0.Coords, EltTy.bits .f32 = 32 ∨ (Rect.block (s := S4x4x1024) S4x4x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4x1024.size a ≤ S4x2048x4x1024.size a
  hwx0_3 : ∀ i : grid0.Coords, EltTy.bits .f32 = 32 ∨ (Rect.block (s := S4x2048x4x1024) S1x256x4x1024.size (cc0_transform_3 i) (hinb0_3 i)).WholeWords (EltTy.packing .f32)

variable [Facts₀]

abbrev win0_0 : Pipeline.Window sig grid0 :=
  Pipeline.Window.ofSpec (Memref.whole main_arg0) S1x256x4x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x4x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256x4x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4x1024 : Shape := ⟨4, ![4, 2048, 4, 1024]⟩
abbrev S4x1024 : Shape := ⟨2, ![4, 1024]⟩
abbrev S4096x4 : Shape := ⟨2, ![4096, 4]⟩
abbrev S_ : Shape := ⟨0, ![]⟩
abbrev S4x2048x4 : Shape := ⟨3, ![4, 2048, 4]⟩
abbrev S4x2048x4x1 : Shape := ⟨4, ![4, 2048, 4, 1]⟩
abbrev S1x1x4x1024 : Shape := ⟨4, ![1, 1, 4, 1024]⟩
abbrev S4x2048x4096 : Shape := ⟨3, ![4, 2048, 4096]⟩
abbrev S4x2051x4096 : Shape := ⟨3, ![4, 2051, 4096]⟩
abbrev S4096x1 : Shape := ⟨2, ![4096, 1]⟩
abbrev S4096 : Shape := ⟨1, ![4096]⟩
abbrev S1x1x4096 : Shape := ⟨3, ![1, 1, 4096]⟩

abbrev nBuf : Space → Nat
  | .hbm => 60
  | .vmem => 0
  | .smem => 0
  | _ => 0

abbrev bufTy : (tb : Table) → Fin (tcTables nBuf tb) → BufTy
  | .hbm, ⟨0, _⟩ => ⟨S4x2048x4x1024, .f32⟩
  | .hbm, ⟨1, _⟩ => ⟨S4x1024, .f32⟩
  | .hbm, ⟨2, _⟩ => ⟨S4096x4, .f32⟩
  | .hbm, ⟨3, _⟩ => ⟨S4x2048x4x1024, .f32⟩
  | .hbm, ⟨4, _⟩ => ⟨S_, .f32⟩
  | .hbm, ⟨5, _⟩ => ⟨S4x2048x4, .f32⟩
  | .hbm, ⟨6, _⟩ => ⟨S4x2048x4x1, .f32⟩
  | .hbm, ⟨7, _⟩ => ⟨S_, .f32⟩
  | .hbm, ⟨8, _⟩ => ⟨S4x2048x4x1, .f32⟩
  | .hbm, ⟨9, _⟩ => ⟨S4x2048x4x1, .f32⟩
  | .hbm, ⟨10, _⟩ => ⟨S_, .f32⟩
  | .hbm, ⟨11, _⟩ => ⟨S4x2048x4x1, .f32⟩
  | .hbm, ⟨12, _⟩ => ⟨S4x2048x4x1, .f32⟩
  | .hbm, ⟨13, _⟩ => ⟨S4x2048x4x1, .f32⟩
  | .hbm, ⟨14, _⟩ => ⟨S4x2048x4x1024, .f32⟩
  | .hbm, ⟨15, _⟩ => ⟨S4x2048x4x1024, .f32⟩
  | .hbm, ⟨16, _⟩ => ⟨S1x1x4x1024, .f32⟩
  | .hbm, ⟨17, _⟩ => ⟨S4x2048x4x1024, .f32⟩
  | .hbm, ⟨18, _⟩ => ⟨S4x2048x4x1024, .f32⟩
  | .hbm, ⟨19, _⟩ => ⟨S4x2048x4096, .f32⟩
  | .hbm, ⟨20, _⟩ => ⟨S_, .i32⟩
  | .hbm, ⟨21, _⟩ => ⟨S_, .f32⟩
  | .hbm, ⟨22, _⟩ => ⟨S4x2051x4096, .f32⟩
  | .hbm, ⟨23, _⟩ => ⟨S4x2048x4096, .f32⟩
  | .hbm, ⟨24, _⟩ => ⟨S4096x1, .f32⟩
  | .hbm, ⟨25, _⟩ => ⟨S4096, .f32⟩
  | .hbm, ⟨26, _⟩ => ⟨S1x1x4096, .f32⟩
  | .hbm, ⟨27, _⟩ => ⟨S4x2048x4096, .f32⟩
  | .hbm, ⟨28, _⟩ => ⟨S4x2048x4096, .f32⟩
  | .hbm, ⟨29, _⟩ => ⟨S4x2048x4096, .f32⟩
  | .hbm, ⟨30, _⟩ => ⟨S4096x1, .f32⟩
  | .hbm, ⟨31, _⟩ => ⟨S4096, .f32⟩
  | .hbm, ⟨32, _⟩ => ⟨S1x1x4096, .f32⟩
  | .hbm, ⟨33, _⟩ => ⟨S4x2048x4096, .f32⟩
  | .hbm, ⟨34, _⟩ => ⟨S4x2048x4096, .f32⟩
  | .hbm, ⟨35, _⟩ => ⟨S4x2048x4096, .f32⟩
  | .hbm, ⟨36, _⟩ => ⟨S4x2048x4096, .f32⟩
  | .hbm, ⟨37, _⟩ => ⟨S4096x1, .f32⟩
  | .hbm, ⟨38, _⟩ => ⟨S4096, .f32⟩
  | .hbm, ⟨39, _⟩ => ⟨S1x1x4096, .f32⟩
  | .hbm, ⟨40, _⟩ => ⟨S4x2048x4096, .f32⟩
  | .hbm, ⟨41, _⟩ => ⟨S4x2048x4096, .f32⟩
  | .hbm, ⟨42, _⟩ => ⟨S4x2048x4096, .f32⟩
  | .hbm, ⟨43, _⟩ => ⟨S4x2048x4096, .f32⟩
  | .hbm, ⟨44, _⟩ => ⟨S4096x1, .f32⟩
  | .hbm, ⟨45, _⟩ => ⟨S4096, .f32⟩
  | .hbm, ⟨46, _⟩ => ⟨S1x1x4096, .f32⟩
  | .hbm, ⟨47, _⟩ => ⟨S4x2048x4096, .f32⟩
  | .hbm, ⟨48, _⟩ => ⟨S4x2048x4096, .f32⟩
  | .hbm, ⟨49, _⟩ => ⟨S4x2048x4096, .f32⟩
  | .hbm, ⟨50, _⟩ => ⟨S4x2048x4096, .f32⟩
  | .hbm, ⟨51, _⟩ => ⟨S4x2048x4096, .f32⟩
  | .hbm, ⟨52, _⟩ => ⟨S_, .f32⟩
  | .hbm, ⟨53, _⟩ => ⟨S4x2048x4096, .f32⟩
  | .hbm, ⟨54, _⟩ => ⟨S4x2048x4096, .f32⟩
  | .hbm, ⟨55, _⟩ => ⟨S_, .f32⟩
  | .hbm, ⟨56, _⟩ => ⟨S4x2048x4096, .f32⟩
  | .hbm, ⟨57, _⟩ => ⟨S4x2048x4096, .f32⟩
  | .hbm, ⟨58, _⟩ => ⟨S4x2048x4096, .f32⟩
  | .hbm, ⟨59, _⟩ => ⟨S4x2048x4x1024, .f32⟩
  | _, _ => ⟨S4x2048x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_2 : Ref sig .tc := ⟨.hbm, 52, rfl⟩
abbrev main_v44 : Ref sig .tc := ⟨.hbm, 53, rfl⟩
abbrev main_v45 : Ref sig .tc := ⟨.hbm, 54, rfl⟩
abbrev main_cst_3 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩

abbrev nD : Nat := 1
abbrev τ : Topo := Topo.v7x

variable {F : FTy → Type} [FloatOps F]

class Facts₀ : Prop where
  reducesTo_S4x2048x4x1024_S4x2048x4_d3 : S4x2048x4x1024.ReducesTo [3] S4x2048x4
  h_S_ : 0 < S_.numel
  bcast_S4x2048x4_S4x2048x4x1_0_1_2 : S4x2048x4.BroadcastsInDim S4x2048x4x1 (![0, 1, 2] : Fin 3 → Fin S4x2048x4x1.rank)
  bcast_S_S4x2048x4x1 : S_.BroadcastsInDim S4x2048x4x1 (![] : Fin 0 → Fin S4x2048x4x1.rank)
  bcast_S4x2048x4x1_S4x2048x4x1024_0_1_2_3 : S4x2048x4x1.BroadcastsInDim S4x2048x4x1024 (![0, 1, 2, 3] : Fin 4 → Fin S4x2048x4x1024.rank)
  bcast_S4x1024_S1x1x4x1024_2_3 : S4x1024.BroadcastsInDim S1x1x4x1024 (![2, 3] : Fin 2 → Fin S1x1x4x1024.rank)
  bcast_S1x1x4x1024_S4x2048x4x1024_0_1_2_3 : S1x1x4x1024.BroadcastsInDim S4x2048x4x1024 (![0, 1, 2, 3] : Fin 4 → Fin S4x2048x4x1024.rank)
  shapeCasts_S4x2048x4x1024_S4x2048x4096 : S4x2048x4x1024.ShapeCasts S4x2048x4096
  pads_S4x2048x4096_S4x2051x4096_000_300_000 : S4x2048x4096.Pads (![0, 3, 0] : Fin 3 → Nat) ![0, 0, 0] ![0, 0, 0] S4x2051x4096
  slices_S4x2051x4096_S4x2048x4096_0_0_0 : S4x2051x4096.Slices ![0, 0, 0] S4x2048x4096
  slices_S4096x4_S4096x1_0_0 : S4096x4.Slices ![0, 0] S4096x1
  shapeCasts_S4096x1_S4096 : S4096x1.ShapeCasts S4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  slices_S4x2051x4096_S4x2048x4096_0_1_0 : S4x2051x4096.Slices ![0, 1, 0] S4x2048x4096
  slices_S4096x4_S4096x1_0_1 : S4096x4.Slices ![0, 1] S4096x1
  slices_S4x2051x4096_S4x2048x4096_0_2_0 : S4x2051x4096.Slices ![0, 2, 0] S4x2048x4096
  slices_S4096x4_S4096x1_0_2 : S4096x4.Slices ![0, 2] S4096x1
  slices_S4x2051x4096_S4x2048x4096_0_3_0 : S4x2051x4096.Slices ![0, 3, 0] S4x2048x4096
  slices_S4096x4_S4096x1_0_3 : S4096x4.Slices ![0, 3] S4096x1
  bcast_S_S4x2048x4096 : S_.BroadcastsInDim S4x2048x4096 (![] : Fin 0 → Fin S4x2048x4096.rank)
  shapeCasts_S4x2048x4096_S4x2048x4x1024 : S4x2048x4096.ShapeCasts S4x2048x4x1024

variable [Facts₀]

class Facts : Prop extends Facts₀ where

variable [Facts]
-- ==== Proof.LibWritesJunk.lean ====
/-
  A whole buffer after stores that cover it holds those stores over ANY earlier contents.

  If every index of a whole buffer lies in the rectangle of one of a list of stores, the buffer's contents after the
  stores do not depend on what it held before: each element is the payload of the last store that covers it. So the
  contents written over `f` and the contents written over the buffer's arbitrary filler are the same function. The
  library states this with the cover given as a checked certificate on the rectangles; here the cover is a plain
  hypothesis, index by index, as the tiling lemmas produce it.
-/
import Idealize.ShloMosaic.Lib.Exec

noncomputable section

namespace Idealize.ShloMosaic

variable {sig : RefSig} {Val : EltTy → Type}

/-- Stores that cover a whole buffer leave the same contents whatever it held before. -/
theorem Memref.IsWhole.writes_eq_junk_of_cover [∀ e, Nonempty (Val e)] {κ : Kind} {sp : Space} {s : Shape} {e : EltTy}
    {m : Memref sig κ sp s e} (hw : m.IsWhole) (f : m.view.ty.Contents Val) (L : List (View.Piece Val s e))
    (hc : ∀ y : s.Idx, ∃ p ∈ L, y ∈ p.1.set) :
    m.view.writes Val f L = m.view.writes Val m.view.junk L := by
  obtain ⟨b, rfl, rfl, rfl, h⟩ := hw; cases h
  funext y
  exact View.read_writes_apply_eq (View.whole b) f (View.whole b) (View.whole b).junk y L (hc y)

end Idealize.ShloMosaic

end
-- ==== Proof.Spec.lean ====
/-
  The short convolution as ONE function of the three argument arrays, index by index, on the extended reals.

  For an input x[b, s, g, c] (4 × 2048 × 4 × 1024), a scale nw[g, c] and a depthwise weight w[g·1024 + c, k] (k < 4):
    * every row (b, s, g) is normalized by the root of its mean square:
        xn[b, s, g, c] = x[b, s, g, c] · rsqrt((∑ c', x[b, s, g, c']²) / 1024 + ε) · nw[g, c];
    * the time axis is padded in front with three zero rows: xp[b, j, g, c] = 0 for j < 3 and xn[b, j − 3, g, c] otherwise;
    * the causal four-tap convolution along time is y[b, s, g, c] = ((xp[s]·w₀ + xp[s+1]·w₁) + xp[s+2]·w₂) + xp[s+3]·w₃;
    * the result is y · logistic y.
  The literals 1024 and ε stay the binary patterns both programs print; they are never evaluated.
-/
import Idealize.ShloMosaic.PureOps.Ideal
import Idealize.ShloMosaic.Lib.ValueIdx

noncomputable section

namespace Cert.ShortConv

open Idealize.ShloMosaic Idealize.ShloMosaic.ValueIdx

/-- The input's shape, the scale's and the weight's. -/
abbrev SX : Shape := ⟨4, ![4, 2048, 4, 1024]⟩
abbrev SN : Shape := ⟨2, ![4, 1024]⟩
abbrev SW : Shape := ⟨2, ![4096, 4]⟩

/-- The reciprocal root of a row's mean square plus ε. -/
def rstd (x : SX.Idx → EReal) (b : Fin 4) (s : Fin 2048) (g : Fin 4) : EReal :=
  Ideal.rsqrt (Ideal.div (∑ k : Fin 1024, x (ix4 b s g k) * x (ix4 b s g k)) (Ideal.ofBits .f32 0x44800000#32)
    + Ideal.ofBits .f32 0x3727C5AC#32)

/-- The normalized, scaled input. -/
def xnorm (x : SX.Idx → EReal) (nw : SN.Idx → EReal) (b : Fin 4) (s : Fin 2048) (g : Fin 4) (c : Fin 1024) : EReal :=
  x (ix4 b s g c) * rstd x b s g * nw (ix2 g c)

/-- The normalized input behind three zero rows: row `j` of the padded time axis (a natural number: the rows past the
    end are never read, and read as zero). -/
def xpad (x : SX.Idx → EReal) (nw : SN.Idx → EReal) (b : Fin 4) (j : ℕ) (g : Fin 4) (c : Fin 1024) : EReal :=
  if h : 3 ≤ j ∧ j - 3 < 2048 then xnorm x nw b ⟨j - 3, h.2⟩ g c else 0

/-- Tap `k` of channel (g, c): row g·1024 + c of the weight. -/
def tap (w : SW.Idx → EReal) (g : Fin 4) (c : Fin 1024) (k : Fin 4) : EReal :=
  w (ix2 ⟨g.val * 1024 + c.val, by have := g.isLt; have := c.isLt; omega⟩ k)

/-- The four-tap causal convolution at time `s`, summed in the programs' order. -/
def conv (x : SX.Idx → EReal) (nw : SN.Idx → EReal) (w : SW.Idx → EReal) (b : Fin 4) (s : ℕ) (g : Fin 4) (c : Fin 1024) : EReal :=
  ((xpad x nw b s g c * tap w g c 0 + xpad x nw b (s + 1) g c * tap w g c 1) + xpad x nw b (s + 2) g c * tap w g c 2)
    + xpad x nw b (s + 3) g c * tap w g c 3

/-- y · logistic y. -/
def silu (y : EReal) : EReal := y * Ideal.logistic y

/-- The result at (b, s, g, c). -/
def outAt (x : SX.Idx → EReal) (nw : SN.Idx → EReal) (w : SW.Idx → EReal) (b : Fin 4) (s : Fin 2048) (g : Fin 4) (c : Fin 1024) : EReal :=
  silu (conv x nw w b s.val g c)

/-- The result array. -/
def out (x : SX.Idx → EReal) (nw : SN.Idx → EReal) (w : SW.Idx → EReal) : SX.Idx → EReal :=
  fun i => outAt x nw w (i 0) (i 1) (i 2) (i 3)

theorem out_ix4 (x : SX.Idx → EReal) (nw : SN.Idx → EReal) (w : SW.Idx → EReal) (b : Fin 4) (s : Fin 2048) (g : Fin 4) (c : Fin 1024) :
    out x nw w (ix4 b s g c) = outAt x nw w b s g c := rfl

theorem xpad_lt (x : SX.Idx → EReal) (nw : SN.Idx → EReal) (b : Fin 4) (j : ℕ) (g : Fin 4) (c : Fin 1024) (h : j < 3) :
    xpad x nw b j g c = 0 := by
  unfold xpad; rw [dif_neg]; omega

theorem xpad_ge (x : SX.Idx → EReal) (nw : SN.Idx → EReal) (b : Fin 4) (j : ℕ) (g : Fin 4) (c : Fin 1024) (s : Fin 2048)
    (h : j = s.val + 3) : xpad x nw b j g c = xnorm x nw b s g c := by
  subst h
  unfold xpad
  rw [dif_pos ⟨by omega, by have := s.isLt; omega⟩]
  exact congrArg (fun t => xnorm x nw b t g c) (Fin.ext (by simp))

end Cert.ShortConv

end
-- ==== Proof.RefNorm.lean ====
/-
  The reference's first stage, read index by index: the product %12 of the program is the normalized, scaled input
  of the specification. Each row (b, s, g) is summed over its 1024 entries (the sum's initial value is the zero word,
  which is 0), divided by the 1024 pattern, ε added, the reciprocal root taken and broadcast back along the row; the
  scale is broadcast over batch and time.
-/
import proofs.«158120_j18262200943403_2_alg».proof.Proof.Gen.ReferenceIdeal.Read
import proofs.«158120_j18262200943403_2_alg».proof.Proof.Spec
import Idealize.ShloMosaic.Lib.ValueIdx
import Idealize.ShloMosaic.Lib.KernelVsHost
import Idealize.ShloMosaic.PureOps.Ideal.Laws

noncomputable section

namespace Cert.ShortConv.Ref

open Cert.ReferenceIdeal Cert.ReferenceIdeal.Gen Cert.ReferenceIdeal.Read Idealize.ShloMosaic Idealize.ShloMosaic.ValueIdx Cert.ShortConv

/-- The row sum %1 at (b, s, g): the sum of the squares of the row. -/
theorem v1_at (x0 : (⟨S4x2048x4x1024, .f32⟩ : BufTy).Contents (Elt Ideal)) (b : Fin 4) (s : Fin 2048) (g : Fin 4) :
    val_main_v1 (F := Ideal) x0 (ix3 b s g) = ∑ k : Fin 1024, x0 (ix4 b s g k) * x0 (ix4 b s g k) := by
  rw [val_main_v1_apply, val_main_cst_apply, Ideal.ofBits_def, Ideal.ofBits_zero_f32, zero_add]
  refine Finset.sum_congr rfl fun k _ => ?_
  have hk : idx_main_v1 (ix3 b s g) k = ix4 b s g k :=
    funext fun a => Fin.ext (by match a with | ⟨0, _⟩ => rfl | ⟨1, _⟩ => rfl | ⟨2, _⟩ => rfl | ⟨3, _⟩ => rfl)
  rw [val_main_v0_apply, hk, Ideal.mulf_def]

/-- The reciprocal root %7 at (b, s, g, 0) is the specification's `rstd`. -/
theorem v7_at (x0 : (⟨S4x2048x4x1024, .f32⟩ : BufTy).Contents (Elt Ideal)) (b : Fin 4) (s : Fin 2048) (g : Fin 4) :
    val_main_v7 (F := Ideal) x0 (ix4 b s g (0 : Fin 1)) = rstd x0 b s g := by
  have h2 : idx_main_v2 (ix4 b s g (0 : Fin 1)) = ix3 b s g :=
    funext fun a => Fin.ext (by match a with | ⟨0, _⟩ => rfl | ⟨1, _⟩ => rfl | ⟨2, _⟩ => rfl)
  rw [val_main_v7_apply, val_main_v6_apply, val_main_v4_apply, val_main_v2_apply, val_main_v3_apply, val_main_v5_apply,
    val_main_cst_0_apply, val_main_cst_1_apply, h2, v1_at]
  rfl

/-- The product %12 at (b, s, g, c) is the specification's normalized, scaled input. -/
theorem v12_at (x0 : (⟨S4x2048x4x1024, .f32⟩ : BufTy).Contents (Elt Ideal)) (x1 : (⟨S4x1024, .f32⟩ : BufTy).Contents (Elt Ideal)) (b : Fin 4) (s : Fin 2048) (g : Fin 4) (c : Fin 1024) :
    val_main_v12 (F := Ideal) x0 x1 (ix4 b s g c) = xnorm x0 x1 b s g c := by
  have h8 : idx_main_v8 (ix4 b s g c) = ix4 b s g (0 : Fin 1) :=
    funext fun a => Fin.ext (by match a with | ⟨0, _⟩ => rfl | ⟨1, _⟩ => rfl | ⟨2, _⟩ => rfl | ⟨3, _⟩ => rfl)
  have h11 : idx_main_v10 (idx_main_v11 (ix4 b s g c)) = ix2 g c :=
    funext fun a => Fin.ext (by match a with | ⟨0, _⟩ => rfl | ⟨1, _⟩ => rfl)
  rw [val_main_v12_apply, val_main_v9_apply, val_main_v8_apply, val_main_v11_apply, val_main_v10_apply, h8, h11, v7_at]
  rfl

end Cert.ShortConv.Ref

end
-- ==== Proof.RefTaps.lean ====
/-
  The reference's weight columns, read index by index. Column k of the weight (a slice [0:4096, k:k+1]) is reshaped to
  a vector of 4096 entries and broadcast over batch and time: at (b, s, q) it is the weight at (q, k). The flat channel
  index of (g, c) is q = g·1024 + c.
-/
import proofs.«158120_j18262200943403_2_alg».proof.Proof.Gen.ReferenceIdeal.Read
import proofs.«158120_j18262200943403_2_alg».proof.Proof.Spec
import Idealize.ShloMosaic.Lib.ValueIdx
import Idealize.ShloMosaic.Lib.KernelVsHost
import Idealize.ShloMosaic.PureOps.Ideal.Laws

noncomputable section

namespace Cert.ShortConv.Ref

open Cert.ReferenceIdeal Cert.ReferenceIdeal.Gen Cert.ReferenceIdeal.Read Idealize.ShloMosaic Idealize.ShloMosaic.ValueIdx Cert.ShortConv

/-- The flat channel index g·1024 + c of channel (g, c). -/
abbrev chan (g : Fin 4) (c : Fin 1024) : Fin 4096 :=
  ⟨g.val * 1024 + c.val, by have := g.isLt; have := c.isLt; omega⟩

theorem chan_val (g : Fin 4) (c : Fin 1024) : (chan g c).val = g.val * 1024 + c.val := rfl
theorem chan_div (g : Fin 4) (c : Fin 1024) : (g.val * 1024 + c.val) / 1024 = g.val := by
  have := c.isLt; omega
theorem chan_mod (g : Fin 4) (c : Fin 1024) : (g.val * 1024 + c.val) % 1024 = c.val := by
  have := c.isLt; omega

/-- The broadcast weight column %19 at (b, s, g·1024 + c) is tap 0 of channel (g, c). -/
theorem v19_at (x2 : (⟨S4096x4, .f32⟩ : BufTy).Contents (Elt Ideal)) (b : Fin 4) (s : Fin 2048) (g : Fin 4) (c : Fin 1024) :
    val_main_v19 (F := Ideal) x2 (ix3 b s (chan g c)) = tap x2 g c 0 := by
  rw [val_main_v19_apply, val_main_v18_apply, val_main_v17_apply, val_main_v16_apply]
  exact congrArg x2 (funext fun a => Fin.ext (by
    match a with
    | ⟨0, _⟩ => exact Nat.div_one _
    | ⟨1, _⟩ => rfl))

/-- The broadcast weight column %25 at (b, s, g·1024 + c) is tap 1 of channel (g, c). -/
theorem v25_at (x2 : (⟨S4096x4, .f32⟩ : BufTy).Contents (Elt Ideal)) (b : Fin 4) (s : Fin 2048) (g : Fin 4) (c : Fin 1024) :
    val_main_v25 (F := Ideal) x2 (ix3 b s (chan g c)) = tap x2 g c 1 := by
  rw [val_main_v25_apply, val_main_v24_apply, val_main_v23_apply, val_main_v22_apply]
  exact congrArg x2 (funext fun a => Fin.ext (by
    match a with
    | ⟨0, _⟩ => exact Nat.div_one _
    | ⟨1, _⟩ => rfl))

/-- The broadcast weight column %32 at (b, s, g·1024 + c) is tap 2 of channel (g, c). -/
theorem v32_at (x2 : (⟨S4096x4, .f32⟩ : BufTy).Contents (Elt Ideal)) (b : Fin 4) (s : Fin 2048) (g : Fin 4) (c : Fin 1024) :
    val_main_v32 (F := Ideal) x2 (ix3 b s (chan g c)) = tap x2 g c 2 := by
  rw [val_main_v32_apply, val_main_v31_apply, val_main_v30_apply, val_main_v29_apply]
  exact congrArg x2 (funext fun a => Fin.ext (by
    match a with
    | ⟨0, _⟩ => exact Nat.div_one _
    | ⟨1, _⟩ => rfl))

/-- The broadcast weight column %39 at (b, s, g·1024 + c) is tap 3 of channel (g, c). -/
theorem v39_at (x2 : (⟨S4096x4, .f32⟩ : BufTy).Contents (Elt Ideal)) (b : Fin 4) (s : Fin 2048) (g : Fin 4) (c : Fin 1024) :
    val_main_v39 (F := Ideal) x2 (ix3 b s (chan g c)) = tap x2 g c 3 := by
  rw [val_main_v39_apply, val_main_v38_apply, val_main_v37_apply, val_main_v36_apply]
  exact congrArg x2 (funext fun a => Fin.ext (by
    match a with
    | ⟨0, _⟩ => exact Nat.div_one _
    | ⟨1, _⟩ => rfl))

end Cert.ShortConv.Ref

end
-- ==== Proof.RefPad.lean ====
/-
  The reference's padded array and its four time slices, read index by index. The normalized input is reshaped to
  [4, 2048, 4096] (channel q = g·1024 + c), padded in front of the time axis with three rows of the padding value (the
  integer 0 converted to a float: 0), and cut into the four windows of 2048 rows starting at rows 0, 1, 2, 3. Padded row j
  is 0 for j < 3 and the normalized input's row j − 3 otherwise: the specification's `xpad`.
-/
import proofs.«158120_j18262200943403_2_alg».proof.Proof.Gen.ReferenceIdeal.Read
import proofs.«158120_j18262200943403_2_alg».proof.Proof.Spec
import proofs.«158120_j18262200943403_2_alg».proof.Proof.RefNorm
import proofs.«158120_j18262200943403_2_alg».proof.Proof.RefTaps
import Idealize.ShloMosaic.Lib.ValueIdx
import Idealize.ShloMosaic.Lib.KernelVsHost
import Idealize.ShloMosaic.PureOps.Ideal.Laws

noncomputable section

namespace Cert.ShortConv.Ref

open Cert.ReferenceIdeal Cert.ReferenceIdeal.Gen Cert.ReferenceIdeal.Read Idealize.ShloMosaic Idealize.ShloMosaic.ValueIdx Cert.ShortConv

/-- The padding value is the integer 0 converted: 0. -/
theorem padval : val_main_call0_v0 (F := Ideal) (Shape.Idx.first h_S_) = 0 := by
  rw [val_main_call0_v0_apply, val_main_c_apply]
  show (((0#32 : BitVec 32).toInt : ℝ) : EReal) = 0
  simp

/-- The reshape %13 at (b, s, g·1024 + c) is the normalized input at (b, s, g, c). -/
theorem v13_at (x0 : (⟨S4x2048x4x1024, .f32⟩ : BufTy).Contents (Elt Ideal)) (x1 : (⟨S4x1024, .f32⟩ : BufTy).Contents (Elt Ideal)) (b : Fin 4) (s : Fin 2048) (g : Fin 4) (c : Fin 1024) :
    val_main_v13 (F := Ideal) x0 x1 (ix3 b s (chan g c)) = xnorm x0 x1 b s g c := by
  have h13 : idx_main_v13 (ix3 b s (chan g c)) = ix4 b s g c :=
    funext fun a => Fin.ext (by
      have hb := b.isLt; have hs := s.isLt; have hg := g.isLt; have hc := c.isLt
      match a with
      | ⟨0, _⟩ => show ((b.val * 2048 + s.val) * 4096 + (g.val * 1024 + c.val)) / 8388608 = b.val; omega
      | ⟨1, _⟩ => show ((b.val * 2048 + s.val) * 4096 + (g.val * 1024 + c.val)) / 4096 % 2048 = s.val; omega
      | ⟨2, _⟩ => show ((b.val * 2048 + s.val) * 4096 + (g.val * 1024 + c.val)) / 1024 % 4 = g.val; omega
      | ⟨3, _⟩ => show ((b.val * 2048 + s.val) * 4096 + (g.val * 1024 + c.val)) % 1024 = c.val; omega)
  rw [val_main_v13_apply, h13, v12_at]

/-- The padded array %14 at (b, j, g·1024 + c) is the specification's padded row j. -/
theorem v14_at (x0 : (⟨S4x2048x4x1024, .f32⟩ : BufTy).Contents (Elt Ideal)) (x1 : (⟨S4x1024, .f32⟩ : BufTy).Contents (Elt Ideal)) (b : Fin 4) (j : ℕ) (hj : j < 2051) (g : Fin 4) (c : Fin 1024) :
    val_main_v14 (F := Ideal) x0 x1 (ix3 b (⟨j, hj⟩ : Fin 2051) (chan g c)) = xpad x0 x1 b j g c := by
  unfold val_main_v14
  by_cases h : 3 ≤ j
  · have hs : j - 3 < 2048 := by omega
    rw [xpad_ge x0 x1 b j g c ⟨j - 3, hs⟩ (by show j = (j - 3) + 3; omega)]
    refine (pad_apply_of_inside _ _ _ _ _ _ _ (ix3 b (⟨j, hj⟩ : Fin 2051) (chan g c))
      (ix3 b (⟨j - 3, hs⟩ : Fin 2048) (chan g c)) (fun a => ?_)).trans (v13_at x0 x1 b ⟨j - 3, hs⟩ g c)
    match a with
    | ⟨0, _⟩ => show b.val = 0 + b.val * (0 + 1); omega
    | ⟨1, _⟩ => show j = 3 + (j - 3) * (0 + 1); omega
    | ⟨2, _⟩ => show (chan g c).val = 0 + (chan g c).val * (0 + 1); omega
  · rw [xpad_lt x0 x1 b j g c (by omega)]
    refine (pad_apply_of_not_inside _ _ _ _ _ _ _ (ix3 b (⟨j, hj⟩ : Fin 2051) (chan g c))
      (⟨1, by decide⟩ : Fin 3) (fun hh => ?_)).trans padval
    have h3 : 3 ≤ j := hh.1
    exact h h3

/-- The slice %15 (time rows 0 … 0+2047 of the padded array) at (b, s, g·1024 + c) is padded row s + 0. -/
theorem v15_at (x0 : (⟨S4x2048x4x1024, .f32⟩ : BufTy).Contents (Elt Ideal)) (x1 : (⟨S4x1024, .f32⟩ : BufTy).Contents (Elt Ideal)) (b : Fin 4) (s : Fin 2048) (g : Fin 4) (c : Fin 1024) :
    val_main_v15 (F := Ideal) x0 x1 (ix3 b s (chan g c)) = xpad x0 x1 b (s.val) g c := by
  have hlt : s.val < 2051 := by have := s.isLt; omega
  have hi : idx_main_v15 (ix3 b s (chan g c)) = ix3 b (⟨s.val, hlt⟩ : Fin 2051) (chan g c) :=
    funext fun a => Fin.ext (by
      match a with
      | ⟨0, _⟩ => rfl
      | ⟨1, _⟩ => rfl
      | ⟨2, _⟩ => rfl)
  rw [val_main_v15_apply, hi, v14_at]

/-- The slice %21 (time rows 1 … 1+2047 of the padded array) at (b, s, g·1024 + c) is padded row s + 1. -/
theorem v21_at (x0 : (⟨S4x2048x4x1024, .f32⟩ : BufTy).Contents (Elt Ideal)) (x1 : (⟨S4x1024, .f32⟩ : BufTy).Contents (Elt Ideal)) (b : Fin 4) (s : Fin 2048) (g : Fin 4) (c : Fin 1024) :
    val_main_v21 (F := Ideal) x0 x1 (ix3 b s (chan g c)) = xpad x0 x1 b (s.val + 1) g c := by
  have hlt : s.val + 1 < 2051 := by have := s.isLt; omega
  have hi : idx_main_v21 (ix3 b s (chan g c)) = ix3 b (⟨s.val + 1, hlt⟩ : Fin 2051) (chan g c) :=
    funext fun a => Fin.ext (by
      match a with
      | ⟨0, _⟩ => rfl
      | ⟨1, _⟩ => exact Nat.add_comm 1 s.val
      | ⟨2, _⟩ => rfl)
  rw [val_main_v21_apply, hi, v14_at]

/-- The slice %28 (time rows 2 … 2+2047 of the padded array) at (b, s, g·1024 + c) is padded row s + 2. -/
theorem v28_at (x0 : (⟨S4x2048x4x1024, .f32⟩ : BufTy).Contents (Elt Ideal)) (x1 : (⟨S4x1024, .f32⟩ : BufTy).Contents (Elt Ideal)) (b : Fin 4) (s : Fin 2048) (g : Fin 4) (c : Fin 1024) :
    val_main_v28 (F := Ideal) x0 x1 (ix3 b s (chan g c)) = xpad x0 x1 b (s.val + 2) g c := by
  have hlt : s.val + 2 < 2051 := by have := s.isLt; omega
  have hi : idx_main_v28 (ix3 b s (chan g c)) = ix3 b (⟨s.val + 2, hlt⟩ : Fin 2051) (chan g c) :=
    funext fun a => Fin.ext (by
      match a with
      | ⟨0, _⟩ => rfl
      | ⟨1, _⟩ => exact Nat.add_comm 2 s.val
      | ⟨2, _⟩ => rfl)
  rw [val_main_v28_apply, hi, v14_at]

/-- The slice %35 (time rows 3 … 3+2047 of the padded array) at (b, s, g·1024 + c) is padded row s + 3. -/
theorem v35_at (x0 : (⟨S4x2048x4x1024, .f32⟩ : BufTy).Contents (Elt Ideal)) (x1 : (⟨S4x1024, .f32⟩ : BufTy).Contents (Elt Ideal)) (b : Fin 4) (s : Fin 2048) (g : Fin 4) (c : Fin 1024) :
    val_main_v35 (F := Ideal) x0 x1 (ix3 b s (chan g c)) = xpad x0 x1 b (s.val + 3) g c := by
  have hlt : s.val + 3 < 2051 := by have := s.isLt; omega
  have hi : idx_main_v35 (ix3 b s (chan g c)) = ix3 b (⟨s.val + 3, hlt⟩ : Fin 2051) (chan g c) :=
    funext fun a => Fin.ext (by
      match a with
      | ⟨0, _⟩ => rfl
      | ⟨1, _⟩ => exact Nat.add_comm 3 s.val
      | ⟨2, _⟩ => rfl)
  rw [val_main_v35_apply, hi, v14_at]

end Cert.ShortConv.Ref

end
-- ==== Proof.RefOut.lean ====
/-
  The reference, read index by index, is the specification. The four products of a padded slice and a broadcast weight
  column are summed in the program's order: the four-tap convolution. The program's logistic is written out as
  1 / (1 + exp(−y)) with the literal 1 printed as its binary pattern, which is 1; the product y · logistic y is reshaped
  back from the flat channel q = g·1024 + c to (g, c).
-/
import proofs.«158120_j18262200943403_2_alg».proof.Proof.Gen.ReferenceIdeal.Read
import proofs.«158120_j18262200943403_2_alg».proof.Proof.Spec
import proofs.«158120_j18262200943403_2_alg».proof.Proof.RefPad
import Idealize.ShloMosaic.Lib.ValueIdx
import Idealize.ShloMosaic.Lib.KernelVsHost
import Idealize.ShloMosaic.PureOps.Ideal.Laws

noncomputable section

namespace Cert.ShortConv.Ref

open Cert.ReferenceIdeal Cert.ReferenceIdeal.Gen Cert.ReferenceIdeal.Read Idealize.ShloMosaic Idealize.ShloMosaic.ValueIdx Cert.ShortConv

/-- The binary pattern of the literal one is 1. -/
theorem ofBits_one : Ideal.ofBits .f32 0x3F800000#32 = 1 := by
  simp [Ideal.ofBits, Ideal.ieee, -EReal.coe_mul]; norm_num

/-- The sum %41 at (b, s, g·1024 + c) is the four-tap convolution at time s. -/
theorem v41_at (x0 : (⟨S4x2048x4x1024, .f32⟩ : BufTy).Contents (Elt Ideal)) (x1 : (⟨S4x1024, .f32⟩ : BufTy).Contents (Elt Ideal)) (x2 : (⟨S4096x4, .f32⟩ : BufTy).Contents (Elt Ideal)) (b : Fin 4) (s : Fin 2048) (g : Fin 4) (c : Fin 1024) :
    val_main_v41 (F := Ideal) x0 x1 x2 (ix3 b s (chan g c)) = conv x0 x1 x2 b s.val g c := by
  rw [val_main_v41_apply, val_main_v34_apply, val_main_v27_apply, val_main_v20_apply, val_main_v26_apply,
    val_main_v33_apply, val_main_v40_apply, v15_at, v19_at, v21_at, v25_at, v28_at, v32_at, v35_at, v39_at]
  rfl

/-- The product %48 at (b, s, g·1024 + c) is y · logistic y of the convolution. -/
theorem v48_at (x0 : (⟨S4x2048x4x1024, .f32⟩ : BufTy).Contents (Elt Ideal)) (x1 : (⟨S4x1024, .f32⟩ : BufTy).Contents (Elt Ideal)) (x2 : (⟨S4096x4, .f32⟩ : BufTy).Contents (Elt Ideal)) (b : Fin 4) (s : Fin 2048) (g : Fin 4) (c : Fin 1024) :
    val_main_v48 (F := Ideal) x0 x1 x2 (ix3 b s (chan g c)) = silu (conv x0 x1 x2 b s.val g c) := by
  rw [val_main_v48_apply, val_main_v47_apply, val_main_v46_apply, val_main_cst_3_apply, val_main_v45_apply,
    val_main_v44_apply, val_main_cst_2_apply, val_main_v43_apply, val_main_v42_apply, v41_at]
  show conv x0 x1 x2 b s.val g c * Ideal.div (Ideal.ofBits .f32 0x3F800000#32)
      (Ideal.ofBits .f32 0x3F800000#32 + Ideal.exp (-(conv x0 x1 x2 b s.val g c)))
    = conv x0 x1 x2 b s.val g c * Ideal.div 1 (1 + Ideal.exp (-(conv x0 x1 x2 b s.val g c)))
  rw [ofBits_one]

/-- The final reshape %49 at (b, s, g, c) is the specification's result there. -/
theorem v49_at (x0 : (⟨S4x2048x4x1024, .f32⟩ : BufTy).Contents (Elt Ideal)) (x1 : (⟨S4x1024, .f32⟩ : BufTy).Contents (Elt Ideal)) (x2 : (⟨S4096x4, .f32⟩ : BufTy).Contents (Elt Ideal)) (b : Fin 4) (s : Fin 2048) (g : Fin 4) (c : Fin 1024) :
    val_main_v49 (F := Ideal) x0 x1 x2 (ix4 b s g c) = outAt x0 x1 x2 b s g c := by
  have h49 : idx_main_v49 (ix4 b s g c) = ix3 b s (chan g c) :=
    funext fun a => Fin.ext (by
      have hb := b.isLt; have hs := s.isLt; have hg := g.isLt; have hc := c.isLt
      match a with
      | ⟨0, _⟩ => show (((b.val * 2048 + s.val) * 4 + g.val) * 1024 + c.val) / 8388608 = b.val; omega
      | ⟨1, _⟩ => show (((b.val * 2048 + s.val) * 4 + g.val) * 1024 + c.val) / 4096 % 2048 = s.val; omega
      | ⟨2, _⟩ => show (((b.val * 2048 + s.val) * 4 + g.val) * 1024 + c.val) % 4096 = g.val * 1024 + c.val; omega)
  rw [val_main_v49_apply, h49, v48_at]
  rfl

/-- THE REFERENCE IS THE SPECIFICATION: the program's result, as a function of its three arguments, is `out`. -/
theorem ref_eq (x0 : (⟨S4x2048x4x1024, .f32⟩ : BufTy).Contents (Elt Ideal)) (x1 : (⟨S4x1024, .f32⟩ : BufTy).Contents (Elt Ideal)) (x2 : (⟨S4096x4, .f32⟩ : BufTy).Contents (Elt Ideal)) :
    Cert.ReferenceIdeal.Read.val_main_v49 (F := Ideal) x0 x1 x2 = Cert.ShortConv.out x0 x1 x2 := by
  funext i
  obtain ⟨b, s, g, c, rfl⟩ : ∃ (b : Fin 4) (s : Fin 2048) (g : Fin 4) (c : Fin 1024), i = ix4 b s g c :=
    ⟨i 0, i 1, i 2, i 3, eq_ix4 i⟩
  rw [v49_at, out_ix4]

end Cert.ShortConv.Ref

end
-- ==== Proof.KPay.lean ====
/-
  The kernel's arithmetic, read index by index on the extended reals. A block of 32 time rows is normalized row by row
  (the sum of squares over the 1024 lanes, divided by the 1024 pattern, ε added, the reciprocal root broadcast back along
  the row, the scale broadcast over the rows); the four taps multiply four windows of 32 rows by four weight rows
  broadcast over time and are summed in the program's order; the result is y · logistic y. The layout operations between
  them (unit axes added and dropped, a column and a row broadcast) are read at an index once each.
-/
import proofs.«158120_j18262200943403_2_alg».proof.Proof.Gen.KernelIdeal.Skeleton
import proofs.«158120_j18262200943403_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ShortConv.Ker

open Cert.KernelIdeal Cert.KernelIdeal.Gen Idealize.ShloMosaic Idealize.ShloMosaic.ValueIdx Cert.ShortConv

section Layout
variable {α : Type}

/-- A [32, 4] array cast to [32, 4, 1] reads, at (r, g, 0), the operand at (r, g). -/
theorem colCast_apply (x : S32x4.Idx → α) (h : S32x4.ShapeCasts S32x4x1) (r : Fin 32) (g : Fin 4) (u : Fin 1) :
    shapeCast S32x4x1 x h (ix3 r g u) = x (ix2 r g) :=
  shapeCast_apply x h _ _ (by
    have hu : u.val = 0 := by omega
    rw [Shape.rowMajor_val_two, Shape.rowMajor_val_three]
    show r.val * 4 + g.val = (r.val * 4 + g.val) * 1 + u.val
    omega)

/-- A [32, 4, 1] array broadcast along its last axis to [32, 4, 1024] reads, at (r, g, c), the operand at (r, g, 0). -/
theorem colBroadcast_apply (x : S32x4x1.Idx → α) (h : S32x4x1.Broadcasts S32x4x1024) (r : Fin 32) (g : Fin 4) (c : Fin 1024) :
    broadcastTo S32x4x1024 x h (ix3 r g c) = x (ix3 r g (0 : Fin 1)) :=
  broadcastTo_apply x h (ix3 r g c) (ix3 r g (0 : Fin 1)) fun a =>
    match a with
    | ⟨0, _⟩ => by show r.val = if (32 : Nat) = 1 then 0 else r.val; rw [if_neg (by decide)]
    | ⟨1, _⟩ => by show g.val = if (4 : Nat) = 1 then 0 else g.val; rw [if_neg (by decide)]
    | ⟨2, _⟩ => by show 0 = if (1 : Nat) = 1 then 0 else c.val; rw [if_pos rfl]

/-- A [1, 4, 1024] array broadcast along its first axis to [32, 4, 1024] reads, at (r, g, c), the operand at (0, g, c). -/
theorem rowBroadcast_apply (x : S1x4x1024.Idx → α) (h : S1x4x1024.Broadcasts S32x4x1024) (r : Fin 32) (g : Fin 4) (c : Fin 1024) :
    broadcastTo S32x4x1024 x h (ix3 r g c) = x (ix3 (0 : Fin 1) g c) :=
  broadcastTo_apply x h (ix3 r g c) (ix3 (0 : Fin 1) g c) fun a =>
    match a with
    | ⟨0, _⟩ => by show 0 = if (1 : Nat) = 1 then 0 else r.val; rw [if_pos rfl]
    | ⟨1, _⟩ => by show g.val = if (4 : Nat) = 1 then 0 else g.val; rw [if_neg (by decide)]
    | ⟨2, _⟩ => by show c.val = if (1024 : Nat) = 1 then 0 else c.val; rw [if_neg (by decide)]

end Layout

/-- The sum over the last axis of a [32, 4, 1024] array, read at (r, g): the sum of the row's 1024 entries. -/
theorem rowSum_apply (src : FVec Ideal S32x4x1024 .f32) (h : S32x4x1024.Reduces [2] S32x4) (hφ : FKind.Formats .f32)
    (hacc : (0x00000000#32 : BitVec 32) = FKind.add.neutral .f32 hφ) (r : Fin 32) (g : Fin 4) :
    multiReduction .add [2] S32x4 src 0x00000000#32 h hφ hacc (ix2 r g) = ∑ k : Fin 1024, src (ix3 r g k) :=
  (Ideal.multiReduction_add_single src 0x00000000#32 h hφ hacc (ix2 r g)).trans
    (Finset.sum_congr rfl fun k _ => congrArg src (funext fun a => Fin.ext (by
      match a with
      | ⟨0, _⟩ => rfl
      | ⟨1, _⟩ => rfl
      | ⟨2, _⟩ => rfl)))

/-- The normalized rows the first loop stores: at (r, g, c) the block's entry times the reciprocal root of the row's mean
    square plus ε, times the scale. -/
theorem pay2_at (v3 : Vec Ideal S4x1024 .f32) (v13 : Vec Ideal S1x32x4x1024 .f32) (r : Fin 32) (g : Fin 4) (c : Fin 1024) :
    k0_pay2 (F := Ideal) v3 v13 (ix3 r g c)
      = v13 (ix4 (0 : Fin 1) r g c)
          * Ideal.rsqrt (Ideal.div (∑ k : Fin 1024, v13 (ix4 (0 : Fin 1) r g k) * v13 (ix4 (0 : Fin 1) r g k))
              (Ideal.ofBits .f32 0x44800000#32) + Ideal.ofBits .f32 0x3727C5AC#32)
          * v3 (ix2 g c) := by
  unfold k0_pay2
  refine (congrFun (shapeCast_self _ _) (ix3 r g c)).trans ?_
  refine congrArg₂ (· * ·) (congrArg₂ (· * ·) (shapeCast_1abc_abc_apply v13 _ r g c) ?_)
    ((rowBroadcast_apply _ _ r g c).trans (shapeCast_ab_1ab_apply v3 _ (0 : Fin 1) g c))
  refine (colBroadcast_apply _ _ r g c).trans ?_
  refine congrArg Ideal.rsqrt (congrArg₂ (· + ·) (congrArg₂ Ideal.div ?_ rfl) rfl)
  refine (colCast_apply _ _ r g (0 : Fin 1)).trans ?_
  refine (rowSum_apply _ _ _ _ r g).trans (Finset.sum_congr rfl fun k _ => ?_)
  exact congrArg₂ (· * ·) (shapeCast_1abc_abc_apply v13 _ r g k) (shapeCast_1abc_abc_apply v13 _ r g k)

/-- A weight row [1, 4, 1024] viewed [4, 1024], viewed [1, 4, 1024] again and broadcast over the 32 time rows reads, at
    (r, g, c), the row's entry (0, g, c). -/
theorem weightRow_apply {α : Type} (w : S1x4x1024.Idx → α) (h1 : S1x4x1024.ShapeCasts S4x1024) (h2 : S4x1024.ShapeCasts S1x4x1024)
    (h3 : S1x4x1024.Broadcasts S32x4x1024) (r : Fin 32) (g : Fin 4) (c : Fin 1024) :
    broadcastTo S32x4x1024 (shapeCast S1x4x1024 (shapeCast S4x1024 w h1) h2) h3 (ix3 r g c) = w (ix3 (0 : Fin 1) g c) :=
  (rowBroadcast_apply _ h3 r g c).trans (congrFun (shapeCast_shapeCast w h1 h2) (ix3 (0 : Fin 1) g c))

/-- The first three taps' products, summed in the program's order. -/
theorem pay5_at (a0 : Vec Ideal S32x4x1024 .f32) (w0 : Vec Ideal S1x4x1024 .f32) (a1 : Vec Ideal S32x4x1024 .f32)
    (w1 : Vec Ideal S1x4x1024 .f32) (a2 : Vec Ideal S32x4x1024 .f32) (w2 : Vec Ideal S1x4x1024 .f32)
    (r : Fin 32) (g : Fin 4) (c : Fin 1024) :
    k0_pay5 (F := Ideal) a0 w0 a1 w1 a2 w2 (ix3 r g c)
      = (a0 (ix3 r g c) * w0 (ix3 (0 : Fin 1) g c) + a1 (ix3 r g c) * w1 (ix3 (0 : Fin 1) g c))
          + a2 (ix3 r g c) * w2 (ix3 (0 : Fin 1) g c) := by
  unfold k0_pay5
  exact congrArg₂ (· + ·)
    (congrArg₂ (· + ·) (congrArg (a0 (ix3 r g c) * ·) (weightRow_apply w0 _ _ _ r g c))
      (congrArg (a1 (ix3 r g c) * ·) (weightRow_apply w1 _ _ _ r g c)))
    (congrArg (a2 (ix3 r g c) * ·) (weightRow_apply w2 _ _ _ r g c))

/-- The fourth tap's product. -/
theorem pay6_at (a3 : Vec Ideal S32x4x1024 .f32) (w3 : Vec Ideal S1x4x1024 .f32) (r : Fin 32) (g : Fin 4) (c : Fin 1024) :
    k0_pay6 (F := Ideal) a3 w3 (ix3 r g c) = a3 (ix3 r g c) * w3 (ix3 (0 : Fin 1) g c) := by
  unfold k0_pay6
  exact congrArg (a3 (ix3 r g c) * ·) (weightRow_apply w3 _ _ _ r g c)

/-- What the second loop stores: at (0, r, g, c), y · logistic y of the four taps' sum. -/
theorem pay3_at (a0 a1 a2 a3 : Vec Ideal S32x4x1024 .f32) (w0 w1 w2 w3 : Vec Ideal S1x4x1024 .f32)
    (r : Fin 32) (g : Fin 4) (c : Fin 1024) :
    k0_pay3 (F := Ideal) (k0_pay5 a0 w0 a1 w1 a2 w2) (k0_pay6 a3 w3) (ix4 (0 : Fin 1) r g c)
      = Cert.ShortConv.silu
          (((a0 (ix3 r g c) * w0 (ix3 (0 : Fin 1) g c) + a1 (ix3 r g c) * w1 (ix3 (0 : Fin 1) g c))
              + a2 (ix3 r g c) * w2 (ix3 (0 : Fin 1) g c))
            + a3 (ix3 r g c) * w3 (ix3 (0 : Fin 1) g c)) := by
  unfold k0_pay3
  refine (shapeCast_abc_1abc_apply _ _ (0 : Fin 1) r g c).trans ?_
  refine Eq.trans (b := Cert.ShortConv.silu
    (k0_pay5 (F := Ideal) a0 w0 a1 w1 a2 w2 (ix3 r g c) + k0_pay6 (F := Ideal) a3 w3 (ix3 r g c))) rfl ?_
  rw [pay5_at, pay6_at]

/-- The three zero rows the first grid step stores. -/
theorem pay1_at (j : S3x4x1024.Idx) : k0_pay1 (F := Ideal) j = 0 := by
  unfold k0_pay1
  refine (congrFun (shapeCast_self _ _) j).trans ?_
  exact Ideal.ofBits_zero_f32

/-- The three carried rows a later grid step stores are the rows it read. -/
theorem pay4_at (v6 : Vec Ideal S3x4x1024 .f32) (j : S3x4x1024.Idx) : k0_pay4 (F := Ideal) v6 j = v6 j := by
  unfold k0_pay4
  exact congrFun (shapeCast_self _ _) j

end Cert.ShortConv.Ker

end
-- ==== Proof.KSpec.lean ====
/-
  One grid point of the kernel as functions of the blocks it is handed.

  A grid point (batch b, time tile τ) holds the input's block X (256 rows of the batch's time axis), the scale NW and the
  weight W re-laid as [tap, group, channel]. Its scratch has 259 rows: rows 3 … 258 receive the tile's 256 normalized
  rows, rows 0 … 2 hold the three rows carried from the tile before (zeros on a batch's first tile). The convolution
  reads row r + k of the scratch for output row r and tap k, and the point ends by copying rows 256 … 258 (the tile's
  last three normalized rows) to rows 0 … 2 for the next tile.
-/
import Idealize.ShloMosaic.PureOps.Ideal
import Idealize.ShloMosaic.Lib.ValueIdx
import proofs.«158120_j18262200943403_2_alg».proof.Proof.Spec

noncomputable section

namespace Cert.ShortConv.Ker

open Idealize.ShloMosaic Idealize.ShloMosaic.ValueIdx Cert.ShortConv

/-- The shapes of a point's blocks and of its scratch. -/
abbrev BX : Shape := ⟨4, ![1, 256, 4, 1024]⟩
abbrev BW : Shape := ⟨3, ![4, 4, 1024]⟩
abbrev BS : Shape := ⟨3, ![259, 4, 1024]⟩

/-- Row r of the tile, normalized by the root of its mean square and scaled. -/
def nrow (X : BX.Idx → EReal) (NW : SN.Idx → EReal) (r : Fin 256) (g : Fin 4) (c : Fin 1024) : EReal :=
  X (ix4 (0 : Fin 1) r g c)
    * Ideal.rsqrt (Ideal.div (∑ k : Fin 1024, X (ix4 (0 : Fin 1) r g k) * X (ix4 (0 : Fin 1) r g k)) (Ideal.ofBits .f32 0x44800000#32)
      + Ideal.ofBits .f32 0x3727C5AC#32)
    * NW (ix2 g c)

/-- What the first loop's stores hold: row j ≥ 3 of the scratch is normalized row j − 3 (rows 0 … 2, which the loop does
    not touch, read as zero here). -/
def G1 (X : BX.Idx → EReal) (NW : SN.Idx → EReal) : BS.Idx → EReal :=
  fun j => if h : 3 ≤ (j 0).val then nrow X NW ⟨(j 0).val - 3, by have hj : (j 0).val < 259 := (j 0).isLt; omega⟩ (j 1) (j 2) else 0

/-- The scratch while the convolution runs, on a tile that is not a batch's first: the carried rows `P` under rows 0 … 2,
    the tile's normalized rows above. -/
def EB (P : BS.Idx → EReal) (X : BX.Idx → EReal) (NW : SN.Idx → EReal) : BS.Idx → EReal :=
  fun j => if 3 ≤ (j 0).val then G1 X NW j else P j

/-- The output block from the scratch E and the weight W: y · logistic y of the four taps summed in the program's order. -/
def G3 (E : BS.Idx → EReal) (W : BW.Idx → EReal) : BX.Idx → EReal :=
  fun y => silu
    (((E (ix3 ⟨(y 1).val, by have hy : (y 1).val < 256 := (y 1).isLt; omega⟩ (y 2) (y 3)) * W (ix3 (0 : Fin 4) (y 2) (y 3))
        + E (ix3 ⟨(y 1).val + 1, by have hy : (y 1).val < 256 := (y 1).isLt; omega⟩ (y 2) (y 3)) * W (ix3 (1 : Fin 4) (y 2) (y 3)))
        + E (ix3 ⟨(y 1).val + 2, by have hy : (y 1).val < 256 := (y 1).isLt; omega⟩ (y 2) (y 3)) * W (ix3 (2 : Fin 4) (y 2) (y 3)))
      + E (ix3 ⟨(y 1).val + 3, by have hy : (y 1).val < 256 := (y 1).isLt; omega⟩ (y 2) (y 3)) * W (ix3 (3 : Fin 4) (y 2) (y 3)))

/-- The scratch a point leaves: the tile's normalized rows above, its last three normalized rows (253 … 255) under
    rows 0 … 2. -/
def SC (X : BX.Idx → EReal) (NW : SN.Idx → EReal) : BS.Idx → EReal :=
  fun j => if h : 3 ≤ (j 0).val then G1 X NW j
    else G1 X NW (ix3 ⟨256 + (j 0).val, by omega⟩ (j 1) (j 2))

end Cert.ShortConv.Ker

end
-- ==== Proof.KLoops.lean ====
/-
  The two loops inside the kernel body, read as functions. Each loop makes 8 trips; a trip stores ONE block.

  Loop 1 (the normalization): trip k loads rows 32k … 32k+31 of the staged input block X ([1, 256, 4, 1024]) and stores their
  normalized, scaled rows into rows 32k+3 … 32k+34 of the scratch ([259, 4, 1024]; its first three rows carry the previous
  tile's last rows). After n trips rows 3 … 3+32n−1 of the scratch hold G1 X NW: row j holds the normalized row j − 3.

  Loop 2 (the convolution): trip k loads the four windows of 32 scratch rows starting at rows 32k, 32k+1, 32k+2, 32k+3 and
  the four weight rows, and stores y · logistic y of the four taps' sum into rows 32k … 32k+31 of the output block. After n
  trips rows 0 … 32n−1 of the output block hold G3 E W: row r is the four-tap sum over scratch rows r … r+3.
-/
import proofs.«158120_j18262200943403_2_alg».proof.Proof.Gen.KernelIdeal.Loops
import proofs.«158120_j18262200943403_2_alg».proof.Proof.Spec
import proofs.«158120_j18262200943403_2_alg».proof.Proof.KPay
import proofs.«158120_j18262200943403_2_alg».proof.Proof.KSpec
import Idealize.ShloMosaic.Lib.ValueIdx
import Idealize.ShloMosaic.Lib.Pipeline.Value
import Idealize.ShloMosaic.Lib.Pipeline.CanonAppend
import Idealize.ShloMosaic.Lib.Pipeline.FrameBody
import Idealize.ShloMosaic.Lib.Tactic

set_option maxRecDepth 8192

noncomputable section

namespace Cert.ShortConv.Ker

open Cert.KernelIdeal Cert.KernelIdeal.Gen Idealize.ShloMosaic Idealize.ShloMosaic.TcCoe Idealize.ShloMosaic.ValueIdx
open Idealize.ShloMosaic.Tactic Idealize.SL.Sem Cert.ShortConv

/-! ## The loops make eight trips -/

theorem trips1 : k0_t1_loop.trips = 8 := by decide +kernel
theorem trips2 : k0_t2_loop.trips = 8 := by decide +kernel

/-! ## Loads and stores through a unit-stride rectangle, by coordinates -/

section Rects
variable {α : Type}

/-- A load through a unit-stride rectangle of a rank-3 array reads, at (a, b, c), the array at the offsets plus (a, b, c). -/
theorem ld3_at {Val : EltTy → Type} {e : EltTy} {n0 n1 n2 m0 m1 m2 : ℕ} (X : (⟨3, ![n0, n1, n2]⟩ : Shape).Idx → Val e) (off : Fin 3 → ℕ)
    (inb : ∀ a, off a + (![m0, m1, m2] : Fin 3 → ℕ) a ≤ (⟨3, ![n0, n1, n2]⟩ : Shape).size a)
    (a : Fin m0) (b : Fin m1) (c : Fin m2) (k : (⟨3, ![n0, n1, n2]⟩ : Shape).Idx)
    (h0 : (k 0).val = off 0 + a.val) (h1 : (k 1).val = off 1 + b.val) (h2 : (k 2).val = off 2 + c.val) :
    View.ld X (Rect.unit off ![m0, m1, m2] inb) (ix3 a b c) = X k :=
  congrArg X (funext fun d => Fin.ext (by
    match d with
    | ⟨0, _⟩ => show off 0 + 1 * a.val = (k 0).val; omega
    | ⟨1, _⟩ => show off 1 + 1 * b.val = (k 1).val; omega
    | ⟨2, _⟩ => show off 2 + 1 * c.val = (k 2).val; omega))

/-- The same for a rank-4 array. -/
theorem ld4_at {Val : EltTy → Type} {e : EltTy} {n0 n1 n2 n3 m0 m1 m2 m3 : ℕ} (X : (⟨4, ![n0, n1, n2, n3]⟩ : Shape).Idx → Val e) (off : Fin 4 → ℕ)
    (inb : ∀ a, off a + (![m0, m1, m2, m3] : Fin 4 → ℕ) a ≤ (⟨4, ![n0, n1, n2, n3]⟩ : Shape).size a)
    (a : Fin m0) (b : Fin m1) (c : Fin m2) (d : Fin m3) (k : (⟨4, ![n0, n1, n2, n3]⟩ : Shape).Idx)
    (h0 : (k 0).val = off 0 + a.val) (h1 : (k 1).val = off 1 + b.val) (h2 : (k 2).val = off 2 + c.val)
    (h3 : (k 3).val = off 3 + d.val) :
    View.ld X (Rect.unit off ![m0, m1, m2, m3] inb) (ix4 a b c d) = X k :=
  congrArg X (funext fun e => Fin.ext (by
    match e with
    | ⟨0, _⟩ => show off 0 + 1 * a.val = (k 0).val; omega
    | ⟨1, _⟩ => show off 1 + 1 * b.val = (k 1).val; omega
    | ⟨2, _⟩ => show off 2 + 1 * c.val = (k 2).val; omega
    | ⟨3, _⟩ => show off 3 + 1 * d.val = (k 3).val; omega))

/-- Entry (a, b, c) of a unit-stride rectangle of a rank-3 array sits in the array at the offsets plus (a, b, c). -/
theorem emb3_at {n0 n1 n2 m0 m1 m2 : ℕ} (off : Fin 3 → ℕ)
    (inb : ∀ a, off a + (![m0, m1, m2] : Fin 3 → ℕ) a ≤ (⟨3, ![n0, n1, n2]⟩ : Shape).size a)
    (a : Fin m0) (b : Fin m1) (c : Fin m2) (k : (⟨3, ![n0, n1, n2]⟩ : Shape).Idx)
    (h0 : (k 0).val = off 0 + a.val) (h1 : (k 1).val = off 1 + b.val) (h2 : (k 2).val = off 2 + c.val) :
    (Rect.unit (s := ⟨3, ![n0, n1, n2]⟩) off ![m0, m1, m2] inb).emb (ix3 a b c) = k :=
  funext fun d => Fin.ext (by
    match d with
    | ⟨0, _⟩ => show off 0 + 1 * a.val = (k 0).val; omega
    | ⟨1, _⟩ => show off 1 + 1 * b.val = (k 1).val; omega
    | ⟨2, _⟩ => show off 2 + 1 * c.val = (k 2).val; omega)

/-- The same for a rank-4 array. -/
theorem emb4_at {n0 n1 n2 n3 m0 m1 m2 m3 : ℕ} (off : Fin 4 → ℕ)
    (inb : ∀ a, off a + (![m0, m1, m2, m3] : Fin 4 → ℕ) a ≤ (⟨4, ![n0, n1, n2, n3]⟩ : Shape).size a)
    (a : Fin m0) (b : Fin m1) (c : Fin m2) (d : Fin m3) (k : (⟨4, ![n0, n1, n2, n3]⟩ : Shape).Idx)
    (h0 : (k 0).val = off 0 + a.val) (h1 : (k 1).val = off 1 + b.val) (h2 : (k 2).val = off 2 + c.val)
    (h3 : (k 3).val = off 3 + d.val) :
    (Rect.unit (s := ⟨4, ![n0, n1, n2, n3]⟩) off ![m0, m1, m2, m3] inb).emb (ix4 a b c d) = k :=
  funext fun e => Fin.ext (by
    match e with
    | ⟨0, _⟩ => show off 0 + 1 * a.val = (k 0).val; omega
    | ⟨1, _⟩ => show off 1 + 1 * b.val = (k 1).val; omega
    | ⟨2, _⟩ => show off 2 + 1 * c.val = (k 2).val; omega
    | ⟨3, _⟩ => show off 3 + 1 * d.val = (k 3).val; omega)

/-- Stores that do not cover an index, made after any others, leave the others' canon there. -/
theorem canon_append_of_not_mem {S : Shape} {e : EltTy} {Val : EltTy → Type} [∀ e, Nonempty (Val e)]
    (L' : List (View.Piece Val S e)) (y : S.Idx) :
    ∀ L : List (View.Piece Val S e), (∀ p ∈ L, y ∉ p.1.set) → View.canon (L ++ L') y = View.canon L' y
  | [], _ => rfl
  | p :: L, h => by
    rw [List.cons_append, View.canon_cons_of_not_mem _ _ (h p List.mem_cons_self)]
    exact canon_append_of_not_mem L' y L fun q hq => h q (List.mem_cons_of_mem _ hq)

end Rects

/-! ## Loop 1: the normalized rows -/

theorem G1_ge (X : S1x256x4x1024.Idx → EReal) (NW : S4x1024.Idx → EReal) (j : Fin 259) (ρ : Fin 256) (g : Fin 4)
    (c : Fin 1024) (h : j.val = ρ.val + 3) : G1 X NW (ix3 j g c) = nrow X NW ρ g c := by
  have h3 : 3 ≤ ((ix3 j g c : S259x4x1024.Idx) 0).val := by show 3 ≤ j.val; omega
  unfold G1
  rw [dif_pos h3]
  exact congrArg (fun t => nrow X NW t g c) (Fin.ext (by show j.val - 3 = ρ.val; omega))

theorem G1_lt (X : S1x256x4x1024.Idx → EReal) (NW : S4x1024.Idx → EReal) (y : S259x4x1024.Idx) (h : (y 0).val < 3) :
    G1 X NW y = 0 := by
  unfold G1
  exact dif_neg (by omega)

/-- The block trip k of loop 1 stores: rows 32k+3 … 32k+34 of the scratch, the normalized rows 32k … 32k+31 of X. -/
abbrev piece1 (v3 : Vec Ideal S4x1024 .f32) (X : S1x256x4x1024.Idx → EReal) (k : Fin k0_t1_loop.trips) :
    View.Piece (Elt Ideal) S259x4x1024 .f32 :=
  ⟨Rect.unit (k0_off2 k) ![32, 4, 1024] (k0_off2_inb k),
    k0_pay2 (F := Ideal) v3 (View.ld (Val := Elt Ideal) (e' := .f32) X (Rect.unit (k0_off1 k) ![1, 32, 4, 1024] (k0_off1_inb k)))⟩

/-- Its payload is G1 at the place each entry is stored. -/
theorem piece1_pay (v3 : Vec Ideal S4x1024 .f32) (X : S1x256x4x1024.Idx → EReal) (k : Fin k0_t1_loop.trips)
    (x : (piece1 v3 X k).1.shape.Idx) : (piece1 v3 X k).2 x = G1 X v3 ((piece1 v3 X k).1.emb x) := by
  have hk : k.val < 8 := Nat.lt_of_lt_of_eq k.isLt trips1
  have e1 := k0_off1_eq k
  have e2 := k0_off2_eq k
  obtain ⟨r, g, cc, rfl⟩ : ∃ (r : Fin 32) (g : Fin 4) (cc : Fin 1024), x = ix3 r g cc := ⟨x 0, x 1, x 2, eq_ix3 x⟩
  have hr := r.isLt
  have hρ : 32 * k.val + r.val < 256 := by omega
  have hj : 32 * k.val + 3 + r.val < 259 := by omega
  have hemb : (piece1 v3 X k).1.emb (ix3 r g cc) = (ix3 (⟨32 * k.val + 3 + r.val, hj⟩ : Fin 259) g cc : S259x4x1024.Idx) :=
    emb3_at (k0_off2 k) (k0_off2_inb k) r g cc _ (by rw [e2]; rfl) (by rw [e2]; show g.val = 0 + g.val; omega)
      (by rw [e2]; show cc.val = 0 + cc.val; omega)
  have hl : ∀ c' : Fin 1024, View.ld (Val := Elt Ideal) (e' := .f32) X (Rect.unit (k0_off1 k) ![1, 32, 4, 1024] (k0_off1_inb k)) (ix4 (0 : Fin 1) r g c')
      = X (ix4 (0 : Fin 1) (⟨32 * k.val + r.val, hρ⟩ : Fin 256) g c') := fun c' =>
    ld4_at (Val := Elt Ideal) (e := .f32) X (k0_off1 k) (k0_off1_inb k) (0 : Fin 1) r g c' _ (by rw [e1]; rfl) (by rw [e1]; rfl)
      (by rw [e1]; show g.val = 0 + g.val; omega) (by rw [e1]; show c'.val = 0 + c'.val; omega)
  rw [hemb, G1_ge X v3 _ (⟨32 * k.val + r.val, hρ⟩ : Fin 256) g cc (by show 32 * k.val + 3 + r.val = 32 * k.val + r.val + 3; omega)]
  show k0_pay2 (F := Ideal) v3 (View.ld (Val := Elt Ideal) (e' := .f32) X (Rect.unit (k0_off1 k) ![1, 32, 4, 1024] (k0_off1_inb k))) (ix3 r g cc) = _
  rw [pay2_at]
  unfold nrow
  simp only [hl]

/-- An index of the scratch is in trip k's block iff its row is one of rows 32k+3 … 32k+34. -/
theorem piece1_mem (v3 : Vec Ideal S4x1024 .f32) (X : S1x256x4x1024.Idx → EReal) (k : Fin k0_t1_loop.trips)
    (y : S259x4x1024.Idx) : y ∈ (piece1 v3 X k).1.set ↔ (32 * k.val + 3 ≤ (y 0).val ∧ (y 0).val < 32 * k.val + 35) := by
  have e2 := k0_off2_eq k
  have h1 : (y 1).val < 4 := (y 1).isLt
  have h2 : (y 2).val < 1024 := (y 2).isLt
  show y ∈ (Rect.unit (k0_off2 k) ![32, 4, 1024] (k0_off2_inb k)).set ↔ _
  rw [Rect.mem_set_unit]
  constructor
  · intro h
    have b0 : 32 * k.val + 3 ≤ (y 0).val ∧ (y 0).val < 32 * k.val + 3 + 32 := by
      have := h 0; rw [e2] at this; exact this
    omega
  · rintro ⟨q0, q1⟩ a
    rw [e2]
    match a with
    | ⟨0, _⟩ => show 32 * k.val + 3 ≤ (y 0).val ∧ (y 0).val < 32 * k.val + 3 + 32; omega
    | ⟨1, _⟩ => show 0 ≤ (y 1).val ∧ (y 1).val < 0 + 4; omega
    | ⟨2, _⟩ => show 0 ≤ (y 2).val ∧ (y 2).val < 0 + 1024; omega

section Loop1
variable (𝒱 : Variants) (c : Dev nD) (bd : Option 𝒱.V) (i : grid0.Coords) (arg2 : Memref sig .tc .vmem S1x256x4x1024 .f32) (harg2 : arg2.IsWhole) (arg3 : Memref sig .tc .vmem S4x1024 .f32) (harg3 : arg3.IsWhole) (arg4 : Memref sig .tc .vmem S4x4x1024 .f32) (harg4 : arg4.IsWhole) (arg5 : Memref sig .tc .vmem S1x256x4x1024 .f32) (harg5 : arg5.IsWhole) (arg6 : Memref sig .tc .vmem S259x4x1024 .f32) (harg6 : arg6.IsWhole)
variable (v3 : Vec Ideal S4x1024 .f32) (X_arg2 : BufTy.Contents (Elt Ideal) arg2.view.ty)

/-- ONE TRIP of loop 1 stores one block: the trip's definition, read. -/
theorem trip1_eq (k : Fin k0_t1_loop.trips) :
    tripL_k0_t1 (F := Ideal) 𝒱 c bd i arg2 harg2 arg3 harg3 arg4 harg4 arg5 harg5 arg6 harg6 v3 X_arg2 k = [piece1 v3 (arg2.view.read (Elt Ideal) X_arg2) k] := by
  unfold tripL_k0_t1 trip_k0_t1
  rfl

/-- The blocks of the first n + 1 trips are trip n's in front of the first n trips'. -/
theorem pb1_succ (n : ℕ) (hn : n < k0_t1_loop.trips) :
    pb_k0_t1 (F := Ideal) 𝒱 c bd i arg2 harg2 arg3 harg3 arg4 harg4 arg5 harg5 arg6 harg6 v3 X_arg2 (n + 1)
      = piece1 v3 (arg2.view.read (Elt Ideal) X_arg2) ⟨n, hn⟩ :: pb_k0_t1 (F := Ideal) 𝒱 c bd i arg2 harg2 arg3 harg3 arg4 harg4 arg5 harg5 arg6 harg6 v3 X_arg2 n := by
  have e : pb_k0_t1 (F := Ideal) 𝒱 c bd i arg2 harg2 arg3 harg3 arg4 harg4 arg5 harg5 arg6 harg6 v3 X_arg2 (n + 1)
      = tripL_k0_t1 (F := Ideal) 𝒱 c bd i arg2 harg2 arg3 harg3 arg4 harg4 arg5 harg5 arg6 harg6 v3 X_arg2 ⟨n, hn⟩ ++ pb_k0_t1 (F := Ideal) 𝒱 c bd i arg2 harg2 arg3 harg3 arg4 harg4 arg5 harg5 arg6 harg6 v3 X_arg2 n :=
    pb_k0_t1_succ (F := Ideal) 𝒱 c bd i arg2 harg2 arg3 harg3 arg4 harg4 arg5 harg5 arg6 harg6 v3 X_arg2 ⟨n, hn⟩
  rw [e, trip1_eq]
  rfl

/-- EVERY BLOCK LOOP 1 HAS STORED after n trips holds G1 at the place each of its entries is stored. -/
theorem pieces1_pay : ∀ n, n ≤ k0_t1_loop.trips → ∀ p ∈ pb_k0_t1 (F := Ideal) 𝒱 c bd i arg2 harg2 arg3 harg3 arg4 harg4 arg5 harg5 arg6 harg6 v3 X_arg2 n,
    ∀ x : p.1.shape.Idx, p.2 x = G1 (arg2.view.read (Elt Ideal) X_arg2) v3 (p.1.emb x) := by
  intro n
  induction n with
  | zero => intro _ p hp; exact absurd hp List.not_mem_nil
  | succ n ih =>
    intro hn p hp x
    rw [pb1_succ 𝒱 c bd i arg2 harg2 arg3 harg3 arg4 harg4 arg5 harg5 arg6 harg6 v3 X_arg2 n hn, List.mem_cons] at hp
    rcases hp with rfl | hp
    · exact piece1_pay v3 _ ⟨n, hn⟩ x
    · exact ih (Nat.le_of_succ_le hn) p hp x

/-- THE ROWS LOOP 1 HAS STORED after n trips are rows 3 … 3 + 32n − 1. -/
theorem pieces1_mem (y : S259x4x1024.Idx) : ∀ n, n ≤ k0_t1_loop.trips →
    ((∃ p ∈ pb_k0_t1 (F := Ideal) 𝒱 c bd i arg2 harg2 arg3 harg3 arg4 harg4 arg5 harg5 arg6 harg6 v3 X_arg2 n, y ∈ p.1.set) ↔ (3 ≤ (y 0).val ∧ (y 0).val < 3 + 32 * n)) := by
  intro n
  induction n with
  | zero =>
    intro _
    constructor
    · rintro ⟨p, hp, _⟩; exact absurd hp List.not_mem_nil
    · rintro ⟨h1, h2⟩; omega
  | succ n ih =>
    intro hn
    have ih' := ih (Nat.le_of_succ_le hn)
    rw [pb1_succ 𝒱 c bd i arg2 harg2 arg3 harg3 arg4 harg4 arg5 harg5 arg6 harg6 v3 X_arg2 n hn]
    constructor
    · rintro ⟨p, hp, hy⟩
      rcases List.mem_cons.mp hp with rfl | hp
      · have := (piece1_mem v3 _ ⟨n, hn⟩ y).mp hy
        have hv : (⟨n, hn⟩ : Fin k0_t1_loop.trips).val = n := rfl
        rw [hv] at this
        omega
      · have := ih'.mp ⟨p, hp, hy⟩
        omega
    · rintro ⟨h1, h2⟩
      by_cases hlast : 32 * n + 3 ≤ (y 0).val
      · exact ⟨_, List.mem_cons_self, (piece1_mem v3 _ ⟨n, hn⟩ y).mpr ⟨hlast, by show (y 0).val < 32 * n + 35; omega⟩⟩
      · obtain ⟨p, hp, hy⟩ := ih'.mpr ⟨h1, by omega⟩
        exact ⟨p, List.mem_cons_of_mem _ hp, hy⟩

/-- AFTER ALL TRIPS, whatever was stored before the loop: a scratch row from row 3 on holds G1 … -/
theorem canon1_ge (L' : List (View.Piece (Elt Ideal) S259x4x1024 .f32)) (y : S259x4x1024.Idx) (h : 3 ≤ (y 0).val) :
    View.canon (pb_k0_t1 (F := Ideal) 𝒱 c bd i arg2 harg2 arg3 harg3 arg4 harg4 arg5 harg5 arg6 harg6 v3 X_arg2 k0_t1_loop.trips ++ L') y
      = G1 (arg2.view.read (Elt Ideal) X_arg2) v3 y := by
  have h0 : (y 0).val < 259 := (y 0).isLt
  refine View.canon_append_of_pieces _ L' _ (pieces1_pay 𝒱 c bd i arg2 harg2 arg3 harg3 arg4 harg4 arg5 harg5 arg6 harg6 v3 X_arg2 _ (Nat.le_refl _)) y
    ((pieces1_mem 𝒱 c bd i arg2 harg2 arg3 harg3 arg4 harg4 arg5 harg5 arg6 harg6 v3 X_arg2 y _ (Nat.le_refl _)).mpr ⟨h, ?_⟩)
  rw [trips1]; omega

/-- … and rows 0, 1, 2 hold what the earlier stores left. -/
theorem canon1_lt (L' : List (View.Piece (Elt Ideal) S259x4x1024 .f32)) (y : S259x4x1024.Idx) (h : (y 0).val < 3) :
    View.canon (pb_k0_t1 (F := Ideal) 𝒱 c bd i arg2 harg2 arg3 harg3 arg4 harg4 arg5 harg5 arg6 harg6 v3 X_arg2 k0_t1_loop.trips ++ L') y = View.canon L' y := by
  refine canon_append_of_not_mem L' y _ fun p hp hy => ?_
  have := (pieces1_mem 𝒱 c bd i arg2 harg2 arg3 harg3 arg4 harg4 arg5 harg5 arg6 harg6 v3 X_arg2 y _ (Nat.le_refl _)).mp ⟨p, hp, hy⟩
  omega

end Loop1

/-! ## Loop 2: the convolved rows -/

/-- The output block's entry at (0, ρ, g, c), by coordinates. -/
theorem G3_at (E : BS.Idx → EReal) (W : BW.Idx → EReal) (u : Fin 1) (ρ : Fin 256) (g : Fin 4) (c : Fin 1024) :
    G3 E W (ix4 u ρ g c)
      = silu
        (((E (ix3 (⟨ρ.val, by omega⟩ : Fin 259) g c) * W (ix3 (0 : Fin 4) g c)
            + E (ix3 (⟨ρ.val + 1, by omega⟩ : Fin 259) g c) * W (ix3 (1 : Fin 4) g c))
            + E (ix3 (⟨ρ.val + 2, by omega⟩ : Fin 259) g c) * W (ix3 (2 : Fin 4) g c))
          + E (ix3 (⟨ρ.val + 3, by omega⟩ : Fin 259) g c) * W (ix3 (3 : Fin 4) g c)) := rfl

/-- The block trip k of loop 2 stores: rows 32k … 32k+31 of the output block, from the four windows of 32 scratch rows at
    rows 32k, 32k+1, 32k+2, 32k+3 and the four weight rows. -/
abbrev piece2 (E : BS.Idx → EReal) (W : BW.Idx → EReal) (k : Fin k0_t2_loop.trips) :
    View.Piece (Elt Ideal) S1x256x4x1024 .f32 :=
  ⟨Rect.unit (k0_off5 k) ![1, 32, 4, 1024] (k0_off5_inb k),
    k0_pay3 (F := Ideal)
      (k0_pay5 (F := Ideal)
        (View.ld (Val := Elt Ideal) (e' := .f32) E (Rect.unit (k0_off3 k) S32x4x1024.size (k0_off3_inb k)))
        (View.ld (Val := Elt Ideal) (e' := .f32) W (Rect.unit ![0, 0, 0] S1x4x1024.size inb_S4x4x1024_S1x4x1024_0_0_0))
        (View.ld (Val := Elt Ideal) (e' := .f32) E (Rect.unit (k0_off4 k 1#32) S32x4x1024.size (k0_off4_inb k ⟨0, by decide⟩)))
        (View.ld (Val := Elt Ideal) (e' := .f32) W (Rect.unit ![1, 0, 0] S1x4x1024.size inb_S4x4x1024_S1x4x1024_1_0_0))
        (View.ld (Val := Elt Ideal) (e' := .f32) E (Rect.unit (k0_off4 k 2#32) S32x4x1024.size (k0_off4_inb k ⟨1, by decide⟩)))
        (View.ld (Val := Elt Ideal) (e' := .f32) W (Rect.unit ![2, 0, 0] S1x4x1024.size inb_S4x4x1024_S1x4x1024_2_0_0)))
      (k0_pay6 (F := Ideal)
        (View.ld (Val := Elt Ideal) (e' := .f32) E (Rect.unit (k0_off4 k 3#32) S32x4x1024.size (k0_off4_inb k ⟨2, by decide⟩)))
        (View.ld (Val := Elt Ideal) (e' := .f32) W (Rect.unit ![3, 0, 0] S1x4x1024.size inb_S4x4x1024_S1x4x1024_3_0_0)))⟩

/-- Its payload is G3 at the place each entry is stored. -/
theorem piece2_pay (E : BS.Idx → EReal) (W : BW.Idx → EReal) (k : Fin k0_t2_loop.trips)
    (x : (piece2 E W k).1.shape.Idx) : (piece2 E W k).2 x = G3 E W ((piece2 E W k).1.emb x) := by
  have hk : k.val < 8 := Nat.lt_of_lt_of_eq k.isLt trips2
  have e3 := k0_off3_eq k
  have e41 : k0_off4 k 1#32 = ![32 * k.val + 0 + 1, 0, 0] := k0_off4_eq k ⟨0, by decide⟩
  have e42 : k0_off4 k 2#32 = ![32 * k.val + 1 + 1, 0, 0] := k0_off4_eq k ⟨1, by decide⟩
  have e43 : k0_off4 k 3#32 = ![32 * k.val + 2 + 1, 0, 0] := k0_off4_eq k ⟨2, by decide⟩
  have e5 := k0_off5_eq k
  obtain ⟨u, r, g, cc, rfl⟩ : ∃ (u : Fin 1) (r : Fin 32) (g : Fin 4) (cc : Fin 1024), x = ix4 u r g cc :=
    ⟨x 0, x 1, x 2, x 3, eq_ix4 x⟩
  obtain rfl : u = 0 := Subsingleton.elim _ _
  have hr := r.isLt
  have hρ : 32 * k.val + r.val < 256 := by omega
  have hemb : (piece2 E W k).1.emb (ix4 (0 : Fin 1) r g cc)
      = (ix4 (0 : Fin 1) (⟨32 * k.val + r.val, hρ⟩ : Fin 256) g cc : S1x256x4x1024.Idx) :=
    emb4_at (k0_off5 k) (k0_off5_inb k) (0 : Fin 1) r g cc _ (by rw [e5]; rfl) (by rw [e5]; rfl)
      (by rw [e5]; show g.val = 0 + g.val; omega) (by rw [e5]; show cc.val = 0 + cc.val; omega)
  have ha0 : (View.ld (Val := Elt Ideal) (e' := .f32) E (Rect.unit (k0_off3 k) S32x4x1024.size (k0_off3_inb k))) (ix3 r g cc)
      = E (ix3 (⟨32 * k.val + r.val, by omega⟩ : Fin 259) g cc) :=
    ld3_at (Val := Elt Ideal) (e := .f32) E (k0_off3 k) (k0_off3_inb k) r g cc _ (by rw [e3]; rfl)
      (by rw [e3]; show g.val = 0 + g.val; omega) (by rw [e3]; show cc.val = 0 + cc.val; omega)
  have ha1 : (View.ld (Val := Elt Ideal) (e' := .f32) E (Rect.unit (k0_off4 k 1#32) S32x4x1024.size (k0_off4_inb k ⟨0, by decide⟩))) (ix3 r g cc)
      = E (ix3 (⟨32 * k.val + r.val + 1, by omega⟩ : Fin 259) g cc) :=
    ld3_at (Val := Elt Ideal) (e := .f32) E (k0_off4 k 1#32) (k0_off4_inb k ⟨0, by decide⟩) r g cc _
      (by rw [e41]; show 32 * k.val + r.val + 1 = 32 * k.val + 0 + 1 + r.val; omega)
      (by rw [e41]; show g.val = 0 + g.val; omega) (by rw [e41]; show cc.val = 0 + cc.val; omega)
  have ha2 : (View.ld (Val := Elt Ideal) (e' := .f32) E (Rect.unit (k0_off4 k 2#32) S32x4x1024.size (k0_off4_inb k ⟨1, by decide⟩))) (ix3 r g cc)
      = E (ix3 (⟨32 * k.val + r.val + 2, by omega⟩ : Fin 259) g cc) :=
    ld3_at (Val := Elt Ideal) (e := .f32) E (k0_off4 k 2#32) (k0_off4_inb k ⟨1, by decide⟩) r g cc _
      (by rw [e42]; show 32 * k.val + r.val + 2 = 32 * k.val + 1 + 1 + r.val; omega)
      (by rw [e42]; show g.val = 0 + g.val; omega) (by rw [e42]; show cc.val = 0 + cc.val; omega)
  have ha3 : (View.ld (Val := Elt Ideal) (e' := .f32) E (Rect.unit (k0_off4 k 3#32) S32x4x1024.size (k0_off4_inb k ⟨2, by decide⟩))) (ix3 r g cc)
      = E (ix3 (⟨32 * k.val + r.val + 3, by omega⟩ : Fin 259) g cc) :=
    ld3_at (Val := Elt Ideal) (e := .f32) E (k0_off4 k 3#32) (k0_off4_inb k ⟨2, by decide⟩) r g cc _
      (by rw [e43]; show 32 * k.val + r.val + 3 = 32 * k.val + 2 + 1 + r.val; omega)
      (by rw [e43]; show g.val = 0 + g.val; omega) (by rw [e43]; show cc.val = 0 + cc.val; omega)
  have hw0 : (View.ld (Val := Elt Ideal) (e' := .f32) W (Rect.unit ![0, 0, 0] S1x4x1024.size inb_S4x4x1024_S1x4x1024_0_0_0)) (ix3 (0 : Fin 1) g cc) = W (ix3 (0 : Fin 4) g cc) :=
    ld3_at (Val := Elt Ideal) (e := .f32) W ![0, 0, 0] inb_S4x4x1024_S1x4x1024_0_0_0 (0 : Fin 1) g cc _ rfl
      (by show g.val = 0 + g.val; omega) (by show cc.val = 0 + cc.val; omega)
  have hw1 : (View.ld (Val := Elt Ideal) (e' := .f32) W (Rect.unit ![1, 0, 0] S1x4x1024.size inb_S4x4x1024_S1x4x1024_1_0_0)) (ix3 (0 : Fin 1) g cc) = W (ix3 (1 : Fin 4) g cc) :=
    ld3_at (Val := Elt Ideal) (e := .f32) W ![1, 0, 0] inb_S4x4x1024_S1x4x1024_1_0_0 (0 : Fin 1) g cc _ rfl
      (by show g.val = 0 + g.val; omega) (by show cc.val = 0 + cc.val; omega)
  have hw2 : (View.ld (Val := Elt Ideal) (e' := .f32) W (Rect.unit ![2, 0, 0] S1x4x1024.size inb_S4x4x1024_S1x4x1024_2_0_0)) (ix3 (0 : Fin 1) g cc) = W (ix3 (2 : Fin 4) g cc) :=
    ld3_at (Val := Elt Ideal) (e := .f32) W ![2, 0, 0] inb_S4x4x1024_S1x4x1024_2_0_0 (0 : Fin 1) g cc _ rfl
      (by show g.val = 0 + g.val; omega) (by show cc.val = 0 + cc.val; omega)
  have hw3 : (View.ld (Val := Elt Ideal) (e' := .f32) W (Rect.unit ![3, 0, 0] S1x4x1024.size inb_S4x4x1024_S1x4x1024_3_0_0)) (ix3 (0 : Fin 1) g cc) = W (ix3 (3 : Fin 4) g cc) :=
    ld3_at (Val := Elt Ideal) (e := .f32) W ![3, 0, 0] inb_S4x4x1024_S1x4x1024_3_0_0 (0 : Fin 1) g cc _ rfl
      (by show g.val = 0 + g.val; omega) (by show cc.val = 0 + cc.val; omega)
  rw [hemb, G3_at]
  refine (pay3_at _ _ _ _ _ _ _ _ r g cc).trans ?_
  rw [ha0, ha1, ha2, ha3, hw0, hw1, hw2, hw3]

/-- An index of the output block is in trip k's block iff its row is one of rows 32k … 32k+31. -/
theorem piece2_mem (E : BS.Idx → EReal) (W : BW.Idx → EReal) (k : Fin k0_t2_loop.trips) (y : S1x256x4x1024.Idx) :
    y ∈ (piece2 E W k).1.set ↔ (32 * k.val ≤ (y 1).val ∧ (y 1).val < 32 * k.val + 32) := by
  have e5 := k0_off5_eq k
  have h0 : (y 0).val < 1 := (y 0).isLt
  have h2 : (y 2).val < 4 := (y 2).isLt
  have h3 : (y 3).val < 1024 := (y 3).isLt
  show y ∈ (Rect.unit (k0_off5 k) ![1, 32, 4, 1024] (k0_off5_inb k)).set ↔ _
  rw [Rect.mem_set_unit]
  constructor
  · intro h
    have b1 : 32 * k.val ≤ (y 1).val ∧ (y 1).val < 32 * k.val + 32 := by
      have := h 1; rw [e5] at this; exact this
    exact b1
  · rintro ⟨q0, q1⟩ a
    rw [e5]
    match a with
    | ⟨0, _⟩ => show 0 ≤ (y 0).val ∧ (y 0).val < 0 + 1; omega
    | ⟨1, _⟩ => show 32 * k.val ≤ (y 1).val ∧ (y 1).val < 32 * k.val + 32; omega
    | ⟨2, _⟩ => show 0 ≤ (y 2).val ∧ (y 2).val < 0 + 4; omega
    | ⟨3, _⟩ => show 0 ≤ (y 3).val ∧ (y 3).val < 0 + 1024; omega

section Loop2
variable (𝒱 : Variants) (c : Dev nD) (bd : Option 𝒱.V) (i : grid0.Coords) (arg2 : Memref sig .tc .vmem S1x256x4x1024 .f32) (harg2 : arg2.IsWhole) (arg3 : Memref sig .tc .vmem S4x1024 .f32) (harg3 : arg3.IsWhole) (arg4 : Memref sig .tc .vmem S4x4x1024 .f32) (harg4 : arg4.IsWhole) (arg5 : Memref sig .tc .vmem S1x256x4x1024 .f32) (harg5 : arg5.IsWhole) (arg6 : Memref sig .tc .vmem S259x4x1024 .f32) (harg6 : arg6.IsWhole)
variable (X_arg4 : BufTy.Contents (Elt Ideal) arg4.view.ty) (X_arg6 : BufTy.Contents (Elt Ideal) arg6.view.ty)

/-- ONE TRIP of loop 2 stores one block: the trip's definition, read. -/
theorem trip2_eq (k : Fin k0_t2_loop.trips) :
    tripL_k0_t2 (F := Ideal) 𝒱 c bd i arg2 harg2 arg3 harg3 arg4 harg4 arg5 harg5 arg6 harg6 X_arg4 X_arg6 k
      = [piece2 (arg6.view.read (Elt Ideal) X_arg6) (arg4.view.read (Elt Ideal) X_arg4) k] := by
  unfold tripL_k0_t2 trip_k0_t2
  dsimp only
  sl_unfold_run_names
  rfl

/-- The blocks of the first n + 1 trips are trip n's in front of the first n trips'. -/
theorem pb2_succ (n : ℕ) (hn : n < k0_t2_loop.trips) :
    pb_k0_t2 (F := Ideal) 𝒱 c bd i arg2 harg2 arg3 harg3 arg4 harg4 arg5 harg5 arg6 harg6 X_arg4 X_arg6 (n + 1)
      = piece2 (arg6.view.read (Elt Ideal) X_arg6) (arg4.view.read (Elt Ideal) X_arg4) ⟨n, hn⟩
          :: pb_k0_t2 (F := Ideal) 𝒱 c bd i arg2 harg2 arg3 harg3 arg4 harg4 arg5 harg5 arg6 harg6 X_arg4 X_arg6 n := by
  have e : pb_k0_t2 (F := Ideal) 𝒱 c bd i arg2 harg2 arg3 harg3 arg4 harg4 arg5 harg5 arg6 harg6 X_arg4 X_arg6 (n + 1)
      = tripL_k0_t2 (F := Ideal) 𝒱 c bd i arg2 harg2 arg3 harg3 arg4 harg4 arg5 harg5 arg6 harg6 X_arg4 X_arg6 ⟨n, hn⟩ ++ pb_k0_t2 (F := Ideal) 𝒱 c bd i arg2 harg2 arg3 harg3 arg4 harg4 arg5 harg5 arg6 harg6 X_arg4 X_arg6 n :=
    pb_k0_t2_succ (F := Ideal) 𝒱 c bd i arg2 harg2 arg3 harg3 arg4 harg4 arg5 harg5 arg6 harg6 X_arg4 X_arg6 ⟨n, hn⟩
  rw [e, trip2_eq]
  rfl

/-- EVERY BLOCK LOOP 2 HAS STORED after n trips holds G3 at the place each of its entries is stored. -/
theorem pieces2_pay : ∀ n, n ≤ k0_t2_loop.trips → ∀ p ∈ pb_k0_t2 (F := Ideal) 𝒱 c bd i arg2 harg2 arg3 harg3 arg4 harg4 arg5 harg5 arg6 harg6 X_arg4 X_arg6 n,
    ∀ x : p.1.shape.Idx,
      p.2 x = G3 (arg6.view.read (Elt Ideal) X_arg6) (arg4.view.read (Elt Ideal) X_arg4) (p.1.emb x) := by
  intro n
  induction n with
  | zero => intro _ p hp; exact absurd hp List.not_mem_nil
  | succ n ih =>
    intro hn p hp x
    rw [pb2_succ 𝒱 c bd i arg2 harg2 arg3 harg3 arg4 harg4 arg5 harg5 arg6 harg6 X_arg4 X_arg6 n hn, List.mem_cons] at hp
    rcases hp with rfl | hp
    · exact piece2_pay _ _ ⟨n, hn⟩ x
    · exact ih (Nat.le_of_succ_le hn) p hp x

/-- THE ROWS LOOP 2 HAS STORED after n trips are rows 0 … 32n − 1. -/
theorem pieces2_mem (y : S1x256x4x1024.Idx) : ∀ n, n ≤ k0_t2_loop.trips →
    ((∃ p ∈ pb_k0_t2 (F := Ideal) 𝒱 c bd i arg2 harg2 arg3 harg3 arg4 harg4 arg5 harg5 arg6 harg6 X_arg4 X_arg6 n, y ∈ p.1.set) ↔ (y 1).val < 32 * n) := by
  intro n
  induction n with
  | zero =>
    intro _
    constructor
    · rintro ⟨p, hp, _⟩; exact absurd hp List.not_mem_nil
    · intro h; omega
  | succ n ih =>
    intro hn
    have ih' := ih (Nat.le_of_succ_le hn)
    rw [pb2_succ 𝒱 c bd i arg2 harg2 arg3 harg3 arg4 harg4 arg5 harg5 arg6 harg6 X_arg4 X_arg6 n hn]
    constructor
    · rintro ⟨p, hp, hy⟩
      rcases List.mem_cons.mp hp with rfl | hp
      · have := (piece2_mem _ _ ⟨n, hn⟩ y).mp hy
        have hv : (⟨n, hn⟩ : Fin k0_t2_loop.trips).val = n := rfl
        rw [hv] at this
        omega
      · have := ih'.mp ⟨p, hp, hy⟩
        omega
    · intro h2
      by_cases hlast : 32 * n ≤ (y 1).val
      · exact ⟨_, List.mem_cons_self, (piece2_mem _ _ ⟨n, hn⟩ y).mpr ⟨hlast, by show (y 1).val < 32 * n + 32; omega⟩⟩
      · obtain ⟨p, hp, hy⟩ := ih'.mpr (by omega)
        exact ⟨p, List.mem_cons_of_mem _ hp, hy⟩

/-- AFTER ALL TRIPS the output block holds G3 everywhere. -/
theorem canon2 :
    View.canon (pb_k0_t2 (F := Ideal) 𝒱 c bd i arg2 harg2 arg3 harg3 arg4 harg4 arg5 harg5 arg6 harg6 X_arg4 X_arg6 k0_t2_loop.trips)
      = G3 (arg6.view.read (Elt Ideal) X_arg6) (arg4.view.read (Elt Ideal) X_arg4) := by
  funext y
  have h1 : (y 1).val < 256 := (y 1).isLt
  refine View.canon_apply_of_pieces _ _ (pieces2_pay 𝒱 c bd i arg2 harg2 arg3 harg3 arg4 harg4 arg5 harg5 arg6 harg6 X_arg4 X_arg6 _ (Nat.le_refl _)) y
    ((pieces2_mem 𝒱 c bd i arg2 harg2 arg3 harg3 arg4 harg4 arg5 harg5 arg6 harg6 X_arg4 X_arg6 y _ (Nat.le_refl _)).mpr ?_)
  rw [trips2]; omega

end Loop2

end Cert.ShortConv.Ker

end
-- ==== Proof.KCases.lean ====
/-
  One grid point's body, case by case, as functions of the blocks it is handed. On a batch's first tile (case A) the body
  zeroes rows 0, 1, 2 of the scratch; on every other tile (case B) those rows carry the previous tile's last three
  normalized rows. In both cases the first loop fills rows 3 … 258 with the tile's normalized rows, the second loop
  stores the four-tap convolution of the scratch into the output block, and a last store copies rows 256, 257, 258 of the
  scratch to rows 0, 1, 2 for the next tile.
-/
import proofs.«158120_j18262200943403_2_alg».proof.Proof.Patch.KernelIdealFrame
import proofs.«158120_j18262200943403_2_alg».proof.Proof.KLoops
import proofs.«158120_j18262200943403_2_alg».proof.Proof.KSpec
import proofs.«158120_j18262200943403_2_alg».proof.Proof.KPay
import Idealize.ShloMosaic.Lib.ValueIdx
import Idealize.ShloMosaic.Lib.Pipeline.Value
import Idealize.ShloMosaic.Lib.Pipeline.CanonAppend
import Idealize.ShloMosaic.Lib.Pipeline.FrameBody

set_option maxRecDepth 16384

noncomputable section

namespace Cert.ShortConv.Ker

open Cert.KernelIdeal Cert.KernelIdeal.Gen Idealize.ShloMosaic Idealize.ShloMosaic.TcCoe Idealize.ShloMosaic.ValueIdx
open Idealize.SL.Sem Cert.ShortConv

/-! ## Small facts about the carried rows' rectangle and the scale's load -/

theorem hz2 : (![0, 0] : Fin 2 → ℕ) = fun _ => 0 := funext fun a => by fin_cases a <;> rfl

/-- Rows 0, 1, 2 of the scratch are the carried rows' rectangle. -/
theorem mem_rows012 (y : S259x4x1024.Idx) : y ∈ (Rect.unit (s := S259x4x1024) ![0, 0, 0] S3x4x1024.size inb_S259x4x1024_S3x4x1024_0_0_0).set ↔ (y 0).val < 3 := by
  have h1 : (y 1).val < 4 := (y 1).isLt
  have h2 : (y 2).val < 1024 := (y 2).isLt
  rw [Rect.mem_set_unit]
  constructor
  · intro h
    have b0 : 0 ≤ (y 0).val ∧ (y 0).val < 0 + 3 := h 0
    omega
  · intro h a
    match a with
    | ⟨0, _⟩ => show 0 ≤ (y 0).val ∧ (y 0).val < 0 + 3; omega
    | ⟨1, _⟩ => show 0 ≤ (y 1).val ∧ (y 1).val < 0 + 4; omega
    | ⟨2, _⟩ => show 0 ≤ (y 2).val ∧ (y 2).val < 0 + 1024; omega

/-- THE SCRATCH A POINT LEAVES. If the scratch the convolution read (Ecur) and the stores made so far (L) both hold the
    tile's normalized rows from row 3 on, then after the last store — rows 256, 257, 258 of Ecur copied to rows 0, 1, 2 —
    the scratch is SC: the normalized rows above, the tile's last three normalized rows under rows 0, 1, 2. -/
theorem scratch_after (Ecur : BS.Idx → EReal) (L : List (View.Piece (Elt Ideal) S259x4x1024 .f32)) (X : BX.Idx → EReal) (NW : SN.Idx → EReal)
    (hE : ∀ y : S259x4x1024.Idx, 3 ≤ (y 0).val → Ecur y = G1 X NW y)
    (hL : ∀ y : S259x4x1024.Idx, 3 ≤ (y 0).val → View.canon L y = G1 X NW y) :
    View.canon ((⟨(Rect.unit (s := S259x4x1024) ![0, 0, 0] S3x4x1024.size inb_S259x4x1024_S3x4x1024_0_0_0), k0_pay4 (F := Ideal) (View.ld (Val := Elt Ideal) (e' := .f32) Ecur (Rect.unit (s := S259x4x1024) ![256, 0, 0] S3x4x1024.size inb_S259x4x1024_S3x4x1024_256_0_0))⟩ : View.Piece (Elt Ideal) S259x4x1024 .f32) :: L)
      = SC X NW := by
  funext y
  unfold SC
  by_cases h : 3 ≤ (y 0).val
  · rw [dif_pos h, View.canon_cons_of_not_mem _ _ (fun hm => by have := (mem_rows012 y).mp hm; omega), hL y h]
  · rw [dif_neg h]
    obtain ⟨x, rfl⟩ := (Rect.unit (s := S259x4x1024) ![0, 0, 0] S3x4x1024.size inb_S259x4x1024_S3x4x1024_0_0_0).exists_idx_of_mem ((mem_rows012 y).mpr (by omega))
    obtain ⟨a, g, cc, rfl⟩ : ∃ (a : Fin 3) (g : Fin 4) (cc : Fin 1024), x = ix3 a g cc := ⟨x 0, x 1, x 2, eq_ix3 x⟩
    have ha := a.isLt
    refine (View.canon_cons_emb (Rect.unit (s := S259x4x1024) ![0, 0, 0] S3x4x1024.size inb_S259x4x1024_S3x4x1024_0_0_0) _ L (ix3 a g cc)).trans ?_
    rw [pay4_at]
    have hld : View.ld (Val := Elt Ideal) (e' := .f32) Ecur (Rect.unit (s := S259x4x1024) ![256, 0, 0] S3x4x1024.size inb_S259x4x1024_S3x4x1024_256_0_0) (ix3 a g cc)
        = Ecur (ix3 (⟨256 + a.val, by omega⟩ : Fin 259) g cc) :=
      ld3_at (Val := Elt Ideal) (e := .f32) Ecur ![256, 0, 0] inb_S259x4x1024_S3x4x1024_256_0_0 a g cc _ rfl
        (by show g.val = 0 + g.val; omega) (by show cc.val = 0 + cc.val; omega)
    rw [hld, hE _ (by show 3 ≤ 256 + a.val; omega)]
    refine congrArg (G1 X NW) (funext fun d => Fin.ext ?_)
    match d with
    | ⟨0, _⟩ => show 256 + a.val = 256 + (0 + 1 * a.val); omega
    | ⟨1, _⟩ => show g.val = 0 + 1 * g.val; omega
    | ⟨2, _⟩ => show cc.val = 0 + 1 * cc.val; omega

variable (c : Dev nD) (i : grid0.Coords) (arg2 : Memref sig .tc .vmem S1x256x4x1024 .f32) (harg2 : arg2.IsWhole) (arg3 : Memref sig .tc .vmem S4x1024 .f32) (harg3 : arg3.IsWhole) (arg4 : Memref sig .tc .vmem S4x4x1024 .f32) (harg4 : arg4.IsWhole) (arg5 : Memref sig .tc .vmem S1x256x4x1024 .f32) (harg5 : arg5.IsWhole) (arg6 : Memref sig .tc .vmem S259x4x1024 .f32) (harg6 : arg6.IsWhole)
variable (x0 : Vec Ideal S1x256x4x1024 .f32) (x1 : Vec Ideal S4x1024 .f32) (x2 : Vec Ideal S4x4x1024 .f32)

/-! ## The runs' stores, as the loops' blocks -/

theorem runB_out (hc0 : ¬cond0_0 i) (xs0 : Vec Ideal S259x4x1024 .f32) :
    (GenP.kernelRun0_B (F := Ideal) c i arg2 harg2 arg3 harg3 arg4 harg4 arg5 harg5 arg6 harg6 hc0 x0 x1 x2 xs0).1
      = pb_k0_t2 (F := Ideal) Variants.none c none i arg2 harg2 arg3 harg3 arg4 harg4 arg5 harg5 arg6 harg6 (harg4.unread x2) (arg6.view.writes (Elt Ideal) (harg6.unread xs0) (pb_k0_t1 (F := Ideal) Variants.none c none i arg2 harg2 arg3 harg3 arg4 harg4 arg5 harg5 arg6 harg6 (View.readAt (Elt Ideal) arg3.view (Rect.unit ![0, 0] S4x1024.size inb_S4x1024_S4x1024_0_0).toLoadRect (harg3.unread x1)) (harg2.unread x0) k0_t1_loop.trips)) k0_t2_loop.trips := by
  unfold GenP.kernelRun0_B
  rfl

theorem runB_scr (hc0 : ¬cond0_0 i) (xs0 : Vec Ideal S259x4x1024 .f32) :
    (GenP.kernelRun0_B (F := Ideal) c i arg2 harg2 arg3 harg3 arg4 harg4 arg5 harg5 arg6 harg6 hc0 x0 x1 x2 xs0).2.1
      = (⟨(Rect.unit (s := S259x4x1024) ![0, 0, 0] S3x4x1024.size inb_S259x4x1024_S3x4x1024_0_0_0), k0_pay4 (F := Ideal) (View.readAt (Elt Ideal) arg6.view (Rect.unit (s := S259x4x1024) ![256, 0, 0] S3x4x1024.size inb_S259x4x1024_S3x4x1024_256_0_0).toLoadRect (arg6.view.writes (Elt Ideal) (harg6.unread xs0) (pb_k0_t1 (F := Ideal) Variants.none c none i arg2 harg2 arg3 harg3 arg4 harg4 arg5 harg5 arg6 harg6 (View.readAt (Elt Ideal) arg3.view (Rect.unit ![0, 0] S4x1024.size inb_S4x1024_S4x1024_0_0).toLoadRect (harg3.unread x1)) (harg2.unread x0) k0_t1_loop.trips)))⟩ :
          View.Piece (Elt Ideal) S259x4x1024 .f32) :: (pb_k0_t1 (F := Ideal) Variants.none c none i arg2 harg2 arg3 harg3 arg4 harg4 arg5 harg5 arg6 harg6 (View.readAt (Elt Ideal) arg3.view (Rect.unit ![0, 0] S4x1024.size inb_S4x1024_S4x1024_0_0).toLoadRect (harg3.unread x1)) (harg2.unread x0) k0_t1_loop.trips) := by
  unfold GenP.kernelRun0_B
  rfl

theorem runA_out (hc0 : cond0_0 i) :
    (GenP.kernelRun0_A (F := Ideal) c i arg2 harg2 arg3 harg3 arg4 harg4 arg5 harg5 arg6 harg6 hc0 x0 x1 x2).1
      = pb_k0_t2 (F := Ideal) Variants.none c none i arg2 harg2 arg3 harg3 arg4 harg4 arg5 harg5 arg6 harg6 (harg4.unread x2) (arg6.view.writes (Elt Ideal) arg6.view.junk ((pb_k0_t1 (F := Ideal) Variants.none c none i arg2 harg2 arg3 harg3 arg4 harg4 arg5 harg5 arg6 harg6 (View.readAt (Elt Ideal) arg3.view (Rect.unit ![0, 0] S4x1024.size inb_S4x1024_S4x1024_0_0).toLoadRect (harg3.unread x1)) (harg2.unread x0) k0_t1_loop.trips) ++ [(⟨(Rect.unit (s := S259x4x1024) ![0, 0, 0] S3x4x1024.size inb_S259x4x1024_S3x4x1024_0_0_0), k0_pay1 (F := Ideal)⟩ : View.Piece (Elt Ideal) S259x4x1024 .f32)])) k0_t2_loop.trips := by
  unfold GenP.kernelRun0_A
  rfl

theorem runA_scr (hc0 : cond0_0 i) :
    (GenP.kernelRun0_A (F := Ideal) c i arg2 harg2 arg3 harg3 arg4 harg4 arg5 harg5 arg6 harg6 hc0 x0 x1 x2).2.1
      = (⟨(Rect.unit (s := S259x4x1024) ![0, 0, 0] S3x4x1024.size inb_S259x4x1024_S3x4x1024_0_0_0), k0_pay4 (F := Ideal) (View.readAt (Elt Ideal) arg6.view (Rect.unit (s := S259x4x1024) ![256, 0, 0] S3x4x1024.size inb_S259x4x1024_S3x4x1024_256_0_0).toLoadRect (arg6.view.writes (Elt Ideal) arg6.view.junk ((pb_k0_t1 (F := Ideal) Variants.none c none i arg2 harg2 arg3 harg3 arg4 harg4 arg5 harg5 arg6 harg6 (View.readAt (Elt Ideal) arg3.view (Rect.unit ![0, 0] S4x1024.size inb_S4x1024_S4x1024_0_0).toLoadRect (harg3.unread x1)) (harg2.unread x0) k0_t1_loop.trips) ++ [(⟨(Rect.unit (s := S259x4x1024) ![0, 0, 0] S3x4x1024.size inb_S259x4x1024_S3x4x1024_0_0_0), k0_pay1 (F := Ideal)⟩ : View.Piece (Elt Ideal) S259x4x1024 .f32)])))⟩ :
          View.Piece (Elt Ideal) S259x4x1024 .f32) :: ((pb_k0_t1 (F := Ideal) Variants.none c none i arg2 harg2 arg3 harg3 arg4 harg4 arg5 harg5 arg6 harg6 (View.readAt (Elt Ideal) arg3.view (Rect.unit ![0, 0] S4x1024.size inb_S4x1024_S4x1024_0_0).toLoadRect (harg3.unread x1)) (harg2.unread x0) k0_t1_loop.trips) ++ [(⟨(Rect.unit (s := S259x4x1024) ![0, 0, 0] S3x4x1024.size inb_S259x4x1024_S3x4x1024_0_0_0), k0_pay1 (F := Ideal)⟩ : View.Piece (Elt Ideal) S259x4x1024 .f32)]) := by
  unfold GenP.kernelRun0_A
  rfl

/-! ## What the loops read -/

/-- The scale as the first loop reads it (a load of the whole staged scale) is the scale. -/
theorem scale_eq : (View.readAt (Elt Ideal) arg3.view (Rect.unit ![0, 0] S4x1024.size inb_S4x1024_S4x1024_0_0).toLoadRect (harg3.unread x1)) = x1 := by
  show View.ld (arg3.view.read (Elt Ideal) (harg3.unread x1)) (Rect.unit ![0, 0] S4x1024.size inb_S4x1024_S4x1024_0_0) = x1
  rw [harg3.read_unread]
  exact View.ld_unit_zero hz2 _ x1

/-- The first loop's stores, whatever was stored before them, hold the tile's normalized rows from row 3 on. -/
theorem canon_loop1 (L' : List (View.Piece (Elt Ideal) S259x4x1024 .f32)) (y : S259x4x1024.Idx) (h : 3 ≤ (y 0).val) :
    View.canon ((pb_k0_t1 (F := Ideal) Variants.none c none i arg2 harg2 arg3 harg3 arg4 harg4 arg5 harg5 arg6 harg6 (View.readAt (Elt Ideal) arg3.view (Rect.unit ![0, 0] S4x1024.size inb_S4x1024_S4x1024_0_0).toLoadRect (harg3.unread x1)) (harg2.unread x0) k0_t1_loop.trips) ++ L') y = G1 x0 x1 y := by
  rw [canon1_ge Variants.none c none i arg2 harg2 arg3 harg3 arg4 harg4 arg5 harg5 arg6 harg6 _ _ L' y h, harg2.read_unread, scale_eq]

/-- Case B (a tile that is not a batch's first): the scratch the convolution reads is the carried rows under rows 0, 1, 2
    and the tile's normalized rows above. -/
theorem scratchB_eq (xs0 : Vec Ideal S259x4x1024 .f32) : arg6.view.read (Elt Ideal) (arg6.view.writes (Elt Ideal) (harg6.unread xs0) (pb_k0_t1 (F := Ideal) Variants.none c none i arg2 harg2 arg3 harg3 arg4 harg4 arg5 harg5 arg6 harg6 (View.readAt (Elt Ideal) arg3.view (Rect.unit ![0, 0] S4x1024.size inb_S4x1024_S4x1024_0_0).toLoadRect (harg3.unread x1)) (harg2.unread x0) k0_t1_loop.trips)) = EB xs0 x0 x1 := by
  funext y
  have h0 : (y 0).val < 259 := (y 0).isLt
  by_cases h : 3 ≤ (y 0).val
  · have hc : ∃ p ∈ (pb_k0_t1 (F := Ideal) Variants.none c none i arg2 harg2 arg3 harg3 arg4 harg4 arg5 harg5 arg6 harg6 (View.readAt (Elt Ideal) arg3.view (Rect.unit ![0, 0] S4x1024.size inb_S4x1024_S4x1024_0_0).toLoadRect (harg3.unread x1)) (harg2.unread x0) k0_t1_loop.trips), y ∈ p.1.set :=
      (pieces1_mem Variants.none c none i arg2 harg2 arg3 harg3 arg4 harg4 arg5 harg5 arg6 harg6 _ _ y _ (Nat.le_refl _)).mpr ⟨h, by rw [trips1]; omega⟩
    have hl := canon_loop1 c i arg2 harg2 arg3 harg3 arg4 harg4 arg5 harg5 arg6 harg6 x0 x1 [] y h
    rw [List.append_nil] at hl
    rw [View.read_writes_apply_eq_canon arg6.view _ y _ hc, hl]
    unfold EB
    exact (if_pos h).symm
  · have hn : ∀ p ∈ (pb_k0_t1 (F := Ideal) Variants.none c none i arg2 harg2 arg3 harg3 arg4 harg4 arg5 harg5 arg6 harg6 (View.readAt (Elt Ideal) arg3.view (Rect.unit ![0, 0] S4x1024.size inb_S4x1024_S4x1024_0_0).toLoadRect (harg3.unread x1)) (harg2.unread x0) k0_t1_loop.trips), y ∉ p.1.set := fun p hp hy =>
      h ((pieces1_mem Variants.none c none i arg2 harg2 arg3 harg3 arg4 harg4 arg5 harg5 arg6 harg6 _ _ y _ (Nat.le_refl _)).mp ⟨p, hp, hy⟩).1
    rw [View.read_writes_apply_of_forall_not_mem arg6.view _ y _ hn, harg6.read_unread]
    unfold EB
    exact (if_neg h).symm

/-- Case A (a batch's first tile): rows 0, 1, 2 were zeroed before the loop, so the scratch the convolution reads is the
    tile's normalized rows from row 3 on and zero below. -/
theorem scratchA_eq : arg6.view.read (Elt Ideal) (arg6.view.writes (Elt Ideal) arg6.view.junk ((pb_k0_t1 (F := Ideal) Variants.none c none i arg2 harg2 arg3 harg3 arg4 harg4 arg5 harg5 arg6 harg6 (View.readAt (Elt Ideal) arg3.view (Rect.unit ![0, 0] S4x1024.size inb_S4x1024_S4x1024_0_0).toLoadRect (harg3.unread x1)) (harg2.unread x0) k0_t1_loop.trips) ++ [(⟨(Rect.unit (s := S259x4x1024) ![0, 0, 0] S3x4x1024.size inb_S259x4x1024_S3x4x1024_0_0_0), k0_pay1 (F := Ideal)⟩ : View.Piece (Elt Ideal) S259x4x1024 .f32)])) = G1 x0 x1 := by
  rw [View.read_writes_junk_eq_canon]
  funext y
  by_cases h : 3 ≤ (y 0).val
  · exact canon_loop1 c i arg2 harg2 arg3 harg3 arg4 harg4 arg5 harg5 arg6 harg6 x0 x1 _ y h
  · rw [canon1_lt Variants.none c none i arg2 harg2 arg3 harg3 arg4 harg4 arg5 harg5 arg6 harg6 _ _ _ y (by omega), G1_lt x0 x1 y (by omega)]
    obtain ⟨x, rfl⟩ := (Rect.unit (s := S259x4x1024) ![0, 0, 0] S3x4x1024.size inb_S259x4x1024_S3x4x1024_0_0_0).exists_idx_of_mem ((mem_rows012 y).mpr (by omega))
    exact (View.canon_cons_emb (Rect.unit (s := S259x4x1024) ![0, 0, 0] S3x4x1024.size inb_S259x4x1024_S3x4x1024_0_0_0) _ [] x).trans (pay1_at x)

/-! ## The four cases -/

/-- Case A's output block: the convolution over the tile's normalized rows with three zero rows in front. -/
theorem out0_A_3_eq (hc0 : cond0_0 i) :
    GenP.out0_A_3 (F := Ideal) c i arg2 harg2 arg3 harg3 arg4 harg4 arg5 harg5 arg6 harg6 hc0 x0 x1 x2 = G3 (G1 x0 x1) x2 := by
  unfold GenP.out0_A_3
  rw [View.read_writes_junk_eq_canon, runA_out, canon2, harg4.read_unread, scratchA_eq]

/-- Case A's scratch after the point. -/
theorem sout0_A_0_eq (hc0 : cond0_0 i) :
    GenP.sout0_A_0 (F := Ideal) c i arg2 harg2 arg3 harg3 arg4 harg4 arg5 harg5 arg6 harg6 hc0 x0 x1 x2 = SC x0 x1 := by
  unfold GenP.sout0_A_0
  rw [View.read_writes_junk_eq_canon, runA_scr]
  show View.canon ((⟨(Rect.unit (s := S259x4x1024) ![0, 0, 0] S3x4x1024.size inb_S259x4x1024_S3x4x1024_0_0_0), k0_pay4 (F := Ideal) (View.ld (Val := Elt Ideal) (e' := .f32)
    (arg6.view.read (Elt Ideal) (arg6.view.writes (Elt Ideal) arg6.view.junk ((pb_k0_t1 (F := Ideal) Variants.none c none i arg2 harg2 arg3 harg3 arg4 harg4 arg5 harg5 arg6 harg6 (View.readAt (Elt Ideal) arg3.view (Rect.unit ![0, 0] S4x1024.size inb_S4x1024_S4x1024_0_0).toLoadRect (harg3.unread x1)) (harg2.unread x0) k0_t1_loop.trips) ++ [(⟨(Rect.unit (s := S259x4x1024) ![0, 0, 0] S3x4x1024.size inb_S259x4x1024_S3x4x1024_0_0_0), k0_pay1 (F := Ideal)⟩ : View.Piece (Elt Ideal) S259x4x1024 .f32)]))) (Rect.unit (s := S259x4x1024) ![256, 0, 0] S3x4x1024.size inb_S259x4x1024_S3x4x1024_256_0_0))⟩ : View.Piece (Elt Ideal) S259x4x1024 .f32) :: ((pb_k0_t1 (F := Ideal) Variants.none c none i arg2 harg2 arg3 harg3 arg4 harg4 arg5 harg5 arg6 harg6 (View.readAt (Elt Ideal) arg3.view (Rect.unit ![0, 0] S4x1024.size inb_S4x1024_S4x1024_0_0).toLoadRect (harg3.unread x1)) (harg2.unread x0) k0_t1_loop.trips) ++ [(⟨(Rect.unit (s := S259x4x1024) ![0, 0, 0] S3x4x1024.size inb_S259x4x1024_S3x4x1024_0_0_0), k0_pay1 (F := Ideal)⟩ : View.Piece (Elt Ideal) S259x4x1024 .f32)])) = _
  refine scratch_after _ _ x0 x1 (fun y _ => by rw [scratchA_eq]) (fun y h => canon_loop1 c i arg2 harg2 arg3 harg3 arg4 harg4 arg5 harg5 arg6 harg6 x0 x1 _ y h)

/-- Case B's output block: the convolution over the tile's normalized rows with the carried rows in front. -/
theorem out0_B_3_eq (hc0 : ¬cond0_0 i) (xs0 : Vec Ideal S259x4x1024 .f32) :
    GenP.out0_B_3 (F := Ideal) c i arg2 harg2 arg3 harg3 arg4 harg4 arg5 harg5 arg6 harg6 hc0 x0 x1 x2 xs0 = G3 (EB xs0 x0 x1) x2 := by
  unfold GenP.out0_B_3
  rw [View.read_writes_junk_eq_canon, runB_out, canon2, harg4.read_unread, scratchB_eq]

/-- Case B's scratch after the point: it does not depend on the carried rows. -/
theorem sout0_B_0_eq (hc0 : ¬cond0_0 i) (xs0 : Vec Ideal S259x4x1024 .f32) :
    GenP.sout0_B_0 (F := Ideal) c i arg2 harg2 arg3 harg3 arg4 harg4 arg5 harg5 arg6 harg6 hc0 x0 x1 x2 xs0 = SC x0 x1 := by
  unfold GenP.sout0_B_0
  rw [View.read_writes_junk_eq_canon, runB_scr]
  show View.canon ((⟨(Rect.unit (s := S259x4x1024) ![0, 0, 0] S3x4x1024.size inb_S259x4x1024_S3x4x1024_0_0_0), k0_pay4 (F := Ideal) (View.ld (Val := Elt Ideal) (e' := .f32)
    (arg6.view.read (Elt Ideal) (arg6.view.writes (Elt Ideal) (harg6.unread xs0) (pb_k0_t1 (F := Ideal) Variants.none c none i arg2 harg2 arg3 harg3 arg4 harg4 arg5 harg5 arg6 harg6 (View.readAt (Elt Ideal) arg3.view (Rect.unit ![0, 0] S4x1024.size inb_S4x1024_S4x1024_0_0).toLoadRect (harg3.unread x1)) (harg2.unread x0) k0_t1_loop.trips))) (Rect.unit (s := S259x4x1024) ![256, 0, 0] S3x4x1024.size inb_S259x4x1024_S3x4x1024_256_0_0))⟩ : View.Piece (Elt Ideal) S259x4x1024 .f32) :: (pb_k0_t1 (F := Ideal) Variants.none c none i arg2 harg2 arg3 harg3 arg4 harg4 arg5 harg5 arg6 harg6 (View.readAt (Elt Ideal) arg3.view (Rect.unit ![0, 0] S4x1024.size inb_S4x1024_S4x1024_0_0).toLoadRect (harg3.unread x1)) (harg2.unread x0) k0_t1_loop.trips)) = _
  refine scratch_after _ _ x0 x1 (fun y h => by rw [scratchB_eq]; unfold EB; exact if_pos h) (fun y h => ?_)
  have hl := canon_loop1 c i arg2 harg2 arg3 harg3 arg4 harg4 arg5 harg5 arg6 harg6 x0 x1 [] y h
  rw [List.append_nil] at hl
  exact hl

end Cert.ShortConv.Ker

end
-- ==== Proof.KWeight.lean ====
/-
  The kernel's third window reads the weight re-laid by two host operations before the region: the [4096, 4] weight is
  viewed [4, 1024, 4] (row q = g·1024 + c becomes (g, c)) and its axes permuted to [4, 4, 1024] (tap first). At (k, g, c)
  the re-laid array is the weight at (g·1024 + c, k): tap k of channel (g, c). The other two arguments reach the region
  as launched.
-/
import proofs.«158120_j18262200943403_2_alg».proof.Proof.Gen.KernelIdeal.Frame.Runs
import proofs.«158120_j18262200943403_2_alg».proof.Proof.Spec
import Idealize.ShloMosaic.Lib.ValueIdx
import Idealize.ShloMosaic.Lib.Pipeline.Value
import Idealize.ShloMosaic.Lib.StableHlo.Run

noncomputable section

namespace Cert.ShortConv.Ker

open Cert.KernelIdeal Cert.KernelIdeal.Gen Idealize.ShloMosaic Idealize.ShloMosaic.TcCoe Idealize.ShloMosaic.ValueIdx
open Idealize.SL.Sem Cert.ShortConv

variable (m : (ℓ : Loc nD τ sig) → Buf (Elt Ideal) ℓ)

/-- The re-laid weight, as the two host operations build it. -/
theorem V_weight_eq (c : Dev nD) :
    (V (F := Ideal) m c main_v1 : S4x4x1024.Idx → EReal)
      = transpose S4x4x1024 [2, 0, 1]
          (shapeCast S4x1024x4 (m ((c : Thread nD τ).loc main_arg2)) shapeCasts_S4096x4_S4x1024x4)
          transposes_S4x1024x4_S4x4x1024_2_0_1 := by
  dsimp only [Gen.V, Gen.hostOps0]
  after_results
  rfl

/-- The re-laid weight at (k, g, c) is the weight at (g·1024 + c, k). -/
theorem V_weight_at (c : Dev nD) (k : Fin 4) (g : Fin 4) (cc : Fin 1024) :
    (V (F := Ideal) m c main_v1 : S4x4x1024.Idx → EReal) (ix3 k g cc)
      = (m ((c : Thread nD τ).loc main_arg2) : S4096x4.Idx → EReal)
          (ix2 (⟨g.val * 1024 + cc.val, by have := g.isLt; have := cc.isLt; omega⟩ : Fin 4096) k) := by
  rw [V_weight_eq]
  refine (transpose_apply _ _ _ (ix3 k g cc) (ix3 g cc k) (fun b =>
    match b with
    | ⟨0, _⟩ => rfl
    | ⟨1, _⟩ => rfl
    | ⟨2, _⟩ => rfl)).trans ?_
  exact shapeCast_apply _ _ (ix3 g cc k)
    (ix2 (⟨g.val * 1024 + cc.val, by have := g.isLt; have := cc.isLt; omega⟩ : Fin 4096) k) (by
      rw [Shape.rowMajor_val_two, Shape.rowMajor_val_three]
      show (g.val * 1024 + cc.val) * 4 + k.val = (g.val * 1024 + cc.val) * 4 + k.val
      rfl)

/-- The re-laid weight at (k, g, c) is tap k of channel (g, c). -/
theorem V_weight_tap (c : Dev nD) (k : Fin 4) (g : Fin 4) (cc : Fin 1024) :
    (V (F := Ideal) m c main_v1 : S4x4x1024.Idx → EReal) (ix3 k g cc)
      = tap (m ((c : Thread nD τ).loc main_arg2)) g cc k :=
  V_weight_at m c k g cc

/-- The input reaches the region as launched. -/
theorem V_input (c : Dev nD) : V (F := Ideal) m c main_arg0 = m ((c : Thread nD τ).loc main_arg0) := V_main_arg0 m c

/-- The scale reaches the region as launched. -/
theorem V_scale (c : Dev nD) : V (F := Ideal) m c main_arg1 = m ((c : Thread nD τ).loc main_arg1) := V_main_arg1 m c

end Cert.ShortConv.Ker

end
-- ==== Proof.KBlocks.lean ====
/-
  The windows' blocks as parts of the arrays. The grid has 4 × 8 = 32 points; point t works on batch t / 8 and on the
  time tile t % 8 of 256 rows. The input's and the output's block at point t is [1, 256, 4, 1024] at block index
  (t / 8, t % 8, 0, 0): its entry (0, r, g, c) is the array's entry (t / 8, (t % 8)·256 + r, g, c). The scale's and the
  re-laid weight's blocks are their whole arrays. The output's blocks tile its array: index i lies in the block of the
  one point (i₀)·8 + (i₁) / 256, and every point writes its block back.
-/
import proofs.«158120_j18262200943403_2_alg».proof.Proof.Gen.KernelIdeal.Frame.Runs
import proofs.«158120_j18262200943403_2_alg».proof.Proof.Spec
import proofs.«158120_j18262200943403_2_alg».proof.Proof.KWeight
import Idealize.ShloMosaic.Lib.ValueIdx
import Idealize.ShloMosaic.Lib.Pipeline.Value

noncomputable section

namespace Cert.ShortConv.Ker

open Cert.KernelIdeal Cert.KernelIdeal.Gen Idealize.ShloMosaic Idealize.ShloMosaic.TcCoe Idealize.ShloMosaic.ValueIdx
open Idealize.SL.Sem Cert.ShortConv

variable (m : (ℓ : Loc nD τ sig) → Buf (Elt Ideal) ℓ)

/-- A grid point's number is below 32. -/
theorem point_lt (t : Fin cfg0.N) : t.val < 32 := Nat.lt_of_lt_of_eq t.isLt N_0

/-- The batch grid point t works on: t / 8. -/
abbrev pointBatch (t : Fin cfg0.N) : Fin 4 := ⟨t.val / 8, by have := point_lt t; omega⟩

/-- The time row of row r of grid point t's tile: (t % 8)·256 + r. -/
abbrev pointRow (t : Fin cfg0.N) (r : Fin 256) : Fin 2048 := ⟨t.val % 8 * 256 + r.val, by have := r.isLt; omega⟩

/-- The four windows' block indices at every grid point: (t / 8, t % 8, 0, 0) for the input and the output, zero for
    the scale and the weight. -/
theorem idx_facts : ∀ t : Fin cfg0.N,
    (win0_0.index t (0 : Fin 4) = t.val / 8 ∧ win0_0.index t (1 : Fin 4) = t.val % 8
      ∧ win0_0.index t (2 : Fin 4) = 0 ∧ win0_0.index t (3 : Fin 4) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 4) = t.val / 8 ∧ win0_3.index t (1 : Fin 4) = t.val % 8
      ∧ win0_3.index t (2 : Fin 4) = 0 ∧ win0_3.index t (3 : Fin 4) = 0) :=
  (by decide +kernel : ∀ t : Fin grid0.N, _)

/-- The input's block at point t, at (0, r, g, c), is the input at (t / 8, (t % 8)·256 + r, g, c). -/
theorem xblk_at (c : Dev nD) (t : Fin cfg0.N) (r : Fin 256) (g : Fin 4) (cc : Fin 1024) :
    (iblk m c 0 t : Vec Ideal S1x256x4x1024 .f32) (ix4 (0 : Fin 1) r g cc)
      = (m ((c : Thread nD τ).loc main_arg0) : S4x2048x4x1024.Idx → EReal) (ix4 (pointBatch t) (pointRow t r) g cc) := by
  obtain ⟨⟨e0, e1, e2, e3⟩, -⟩ := idx_facts t
  unfold iblk
  rw [View.read_apply]
  show V m c main_arg0 _ = m (c.tc.loc main_arg0) _
  refine (congrFun (V_main_arg0 m c) _).trans (congrArg (m (c.tc.loc main_arg0)) (funext fun a => Fin.ext ?_))
  match a with
  | ⟨0, _⟩ => show win0_0.index t (0 : Fin 4) * 1 + 1 * 0 = t.val / 8; rw [e0]; omega
  | ⟨1, _⟩ => show win0_0.index t (1 : Fin 4) * 256 + 1 * r.val = t.val % 8 * 256 + r.val; rw [e1]; omega
  | ⟨2, _⟩ => show win0_0.index t (2 : Fin 4) * 4 + 1 * g.val = g.val; rw [e2]; omega
  | ⟨3, _⟩ => show win0_0.index t (3 : Fin 4) * 1024 + 1 * cc.val = cc.val; rw [e3]; omega

/-- The scale's block at any point is the scale. -/
theorem nblk_at (c : Dev nD) (t : Fin cfg0.N) (g : Fin 4) (cc : Fin 1024) :
    (iblk m c 1 t : Vec Ideal S4x1024 .f32) (ix2 g cc)
      = (m ((c : Thread nD τ).loc main_arg1) : S4x1024.Idx → EReal) (ix2 g cc) := by
  obtain ⟨-, ⟨e0, e1⟩, -⟩ := idx_facts t
  unfold iblk
  rw [View.read_apply]
  show V m c main_arg1 _ = m (c.tc.loc main_arg1) _
  refine (congrFun (V_main_arg1 m c) _).trans (congrArg (m (c.tc.loc main_arg1)) (funext fun a => Fin.ext ?_))
  match a with
  | ⟨0, _⟩ => show win0_1.index t (0 : Fin 2) * 4 + 1 * g.val = g.val; rw [e0]; omega
  | ⟨1, _⟩ => show win0_1.index t (1 : Fin 2) * 1024 + 1 * cc.val = cc.val; rw [e1]; omega

/-- The weight's block at any point, at (k, g, c), is tap k of channel (g, c). -/
theorem wblk_at (c : Dev nD) (t : Fin cfg0.N) (k : Fin 4) (g : Fin 4) (cc : Fin 1024) :
    (iblk m c 2 t : Vec Ideal S4x4x1024 .f32) (ix3 k g cc) = tap (m ((c : Thread nD τ).loc main_arg2)) g cc k := by
  obtain ⟨-, -, ⟨e0, e1, e2⟩, -⟩ := idx_facts t
  unfold iblk
  rw [View.read_apply]
  show (V m c main_v1 : S4x4x1024.Idx → EReal) _ = _
  refine (congrArg (V m c main_v1 : S4x4x1024.Idx → EReal) (funext fun a => Fin.ext ?_)).trans (V_weight_tap m c k g cc)
  match a with
  | ⟨0, _⟩ => show win0_2.index t (0 : Fin 3) * 4 + 1 * k.val = k.val; rw [e0]; omega
  | ⟨1, _⟩ => show win0_2.index t (1 : Fin 3) * 4 + 1 * g.val = g.val; rw [e1]; omega
  | ⟨2, _⟩ => show win0_2.index t (2 : Fin 3) * 1024 + 1 * cc.val = cc.val; rw [e2]; omega

/-- Entry (0, r, g, c) of the output's block at point t sits in the output at (t / 8, (t % 8)·256 + r, g, c). -/
theorem oemb (t : Fin cfg0.N) (r : Fin 256) (g : Fin 4) (cc : Fin 1024) :
    (((cfg0.win 3).blk t).view.emb (ix4 (0 : Fin 1) r g cc : S1x256x4x1024.Idx) : S4x2048x4x1024.Idx)
      = ix4 (pointBatch t) (pointRow t r) g cc := by
  obtain ⟨-, -, -, ⟨e0, e1, e2, e3⟩⟩ := idx_facts t
  funext a
  apply Fin.ext
  match a with
  | ⟨0, _⟩ => show win0_3.index t (0 : Fin 4) * 1 + 1 * 0 = t.val / 8; rw [e0]; omega
  | ⟨1, _⟩ => show win0_3.index t (1 : Fin 4) * 256 + 1 * r.val = t.val % 8 * 256 + r.val; rw [e1]; omega
  | ⟨2, _⟩ => show win0_3.index t (2 : Fin 4) * 4 + 1 * g.val = g.val; rw [e2]; omega
  | ⟨3, _⟩ => show win0_3.index t (3 : Fin 4) * 1024 + 1 * cc.val = cc.val; rw [e3]; omega

/-- An index of the output is in point t's block iff its batch is t / 8 and its time row is in tile t % 8. -/
theorem mem_oblk (t : Fin cfg0.N) (i : S4x2048x4x1024.Idx) :
    i ∈ ((cfg0.win 3).blk t).view.set ↔ (i 0).val = t.val / 8 ∧ (i 1).val / 256 = t.val % 8 := by
  obtain ⟨-, -, -, ⟨e0, e1, e2, e3⟩⟩ := idx_facts t
  have h0 : (i 0).val < 4 := (i 0).isLt
  have h1 : (i 1).val < 2048 := (i 1).isLt
  have h2 : (i 2).val < 4 := (i 2).isLt
  have h3 : (i 3).val < 1024 := (i 3).isLt
  show i ∈ ((View.whole main_v2).slice (win0_3.rect t)).set ↔ _
  rw [View.set_slice_whole, Rect.mem_set_unit]
  constructor
  · intro h
    have b0 : win0_3.index t (0 : Fin 4) * 1 ≤ (i 0).val ∧ (i 0).val < win0_3.index t (0 : Fin 4) * 1 + 1 := h 0
    have b1 : win0_3.index t (1 : Fin 4) * 256 ≤ (i 1).val ∧ (i 1).val < win0_3.index t (1 : Fin 4) * 256 + 256 := h 1
    rw [e0] at b0
    rw [e1] at b1
    omega
  · rintro ⟨q0, q1⟩ a
    match a with
    | ⟨0, _⟩ =>
      show win0_3.index t (0 : Fin 4) * 1 ≤ (i 0).val ∧ (i 0).val < win0_3.index t (0 : Fin 4) * 1 + 1
      rw [e0]; omega
    | ⟨1, _⟩ =>
      show win0_3.index t (1 : Fin 4) * 256 ≤ (i 1).val ∧ (i 1).val < win0_3.index t (1 : Fin 4) * 256 + 256
      rw [e1]; omega
    | ⟨2, _⟩ =>
      show win0_3.index t (2 : Fin 4) * 4 ≤ (i 2).val ∧ (i 2).val < win0_3.index t (2 : Fin 4) * 4 + 4
      rw [e2]; omega
    | ⟨3, _⟩ =>
      show win0_3.index t (3 : Fin 4) * 1024 ≤ (i 3).val ∧ (i 3).val < win0_3.index t (3 : Fin 4) * 1024 + 1024
      rw [e3]; omega

/-- The point whose block holds index i of the output: (i₀)·8 + (i₁) / 256. -/
abbrev pointOf (i : S4x2048x4x1024.Idx) : Fin cfg0.N :=
  ⟨(i 0).val * 8 + (i 1).val / 256, by
    have h0 : (i 0).val < 4 := (i 0).isLt
    have h1 : (i 1).val < 2048 := (i 1).isLt
    show (i 0).val * 8 + (i 1).val / 256 < grid0.N
    rw [N_0]; omega⟩

/-- THE OUTPUT'S BLOCKS COVER ITS ARRAY: every index is in the block of a point that writes its block back. -/
theorem ocover (i : S4x2048x4x1024.Idx) :
    ∃ t : Fin cfg0.N, (cfg0.win 3).flush t = true ∧ i ∈ ((cfg0.win 3).blk t).view.set := by
  have h0 : (i 0).val < 4 := (i 0).isLt
  have h1 : (i 1).val < 2048 := (i 1).isLt
  refine ⟨pointOf i, flush0_3 (pointOf i), (mem_oblk (pointOf i) i).mpr ⟨?_, ?_⟩⟩
  · show (i 0).val = ((i 0).val * 8 + (i 1).val / 256) / 8; omega
  · show (i 1).val / 256 = ((i 0).val * 8 + (i 1).val / 256) % 8; omega

end Cert.ShortConv.Ker

end
-- ==== Proof.KPoint.lean ====
/-
  A grid point's functions are the specification's, once its blocks are the arguments' blocks.

  Let the point be (batch b, time tile τ): its input block X is rows τ·256 … τ·256 + 255 of batch b, its scale NW is the
  scale, its weight W is the weight read as [tap, group, channel]. Then
    * normalized row r of the tile is the specification's normalized row τ·256 + r;
    * row j of the scratch while the convolution runs is row τ·256 + j of the zero-padded normalized array — rows j ≥ 3
      are the tile's own rows, rows j < 3 are zero on a batch's first tile (τ = 0) and otherwise the three rows the tile
      before carried over, which are its normalized rows 253 … 255, that is padded rows τ·256 + j again;
    * so the output block's row r is the specification's result at time τ·256 + r.
-/
import proofs.«158120_j18262200943403_2_alg».proof.Proof.KSpec

noncomputable section

namespace Cert.ShortConv.Ker

open Idealize.ShloMosaic Idealize.ShloMosaic.ValueIdx Cert.ShortConv

/-- Row τ·256 + r of the time axis. -/
abbrev trow (τ : ℕ) (hτ : τ < 8) (r : Fin 256) : Fin 2048 := ⟨τ * 256 + r.val, by have := r.isLt; omega⟩

variable (x : SX.Idx → EReal) (nw : SN.Idx → EReal) (w : SW.Idx → EReal)
variable (X : BX.Idx → EReal) (NW : SN.Idx → EReal) (W : BW.Idx → EReal)
variable (b : Fin 4) (τ : ℕ) (hτ : τ < 8)

/-- A normalized row of the tile is the specification's. -/
theorem nrow_eq (hX : ∀ (r : Fin 256) (g : Fin 4) (c : Fin 1024), X (ix4 (0 : Fin 1) r g c) = x (ix4 b (trow τ hτ r) g c))
    (hN : ∀ (g : Fin 4) (c : Fin 1024), NW (ix2 g c) = nw (ix2 g c)) (r : Fin 256) (g : Fin 4) (c : Fin 1024) :
    nrow X NW r g c = xnorm x nw b (trow τ hτ r) g c := by
  unfold nrow xnorm rstd
  rw [hX r g c, hN g c]
  have hs : (∑ k : Fin 1024, X (ix4 (0 : Fin 1) r g k) * X (ix4 (0 : Fin 1) r g k))
      = ∑ k : Fin 1024, x (ix4 b (trow τ hτ r) g k) * x (ix4 b (trow τ hτ r) g k) :=
    Finset.sum_congr rfl fun k _ => by rw [hX r g k]
  rw [hs]

/-- Rows 0 … 2 of the first loop's function read zero. -/
theorem scratchRow_lt (j : Fin 259) (g : Fin 4) (c : Fin 1024) (h : j.val < 3) : G1 X NW (ix3 j g c) = 0 := by
  unfold G1
  rw [dif_neg]
  show ¬ 3 ≤ j.val
  omega

/-- Row j ≥ 3 of the first loop's function is padded row τ·256 + j. -/
theorem scratchRow_ge (hX : ∀ (r : Fin 256) (g : Fin 4) (c : Fin 1024), X (ix4 (0 : Fin 1) r g c) = x (ix4 b (trow τ hτ r) g c))
    (hN : ∀ (g : Fin 4) (c : Fin 1024), NW (ix2 g c) = nw (ix2 g c)) (j : Fin 259) (g : Fin 4) (c : Fin 1024) (h : 3 ≤ j.val) :
    G1 X NW (ix3 j g c) = xpad x nw b (τ * 256 + j.val) g c := by
  unfold G1
  rw [dif_pos (show 3 ≤ j.val from h)]
  have hj : j.val < 259 := j.isLt
  rw [show (⟨((ix3 j g c : BS.Idx) 0).val - 3, _⟩ : Fin 256) = ⟨j.val - 3, by omega⟩ from rfl]
  rw [nrow_eq x nw X NW b τ hτ hX hN ⟨j.val - 3, by omega⟩ g c]
  exact (xpad_ge x nw b (τ * 256 + j.val) g c (trow τ hτ ⟨j.val - 3, by omega⟩) (by show τ * 256 + j.val = τ * 256 + (j.val - 3) + 3; omega)).symm

/-- On a batch's first tile the scratch during the convolution is the padded array's first 259 rows. -/
theorem EA_eq (hX : ∀ (r : Fin 256) (g : Fin 4) (c : Fin 1024), X (ix4 (0 : Fin 1) r g c) = x (ix4 b (trow 0 (by decide) r) g c))
    (hN : ∀ (g : Fin 4) (c : Fin 1024), NW (ix2 g c) = nw (ix2 g c)) (j : Fin 259) (g : Fin 4) (c : Fin 1024) :
    G1 X NW (ix3 j g c) = xpad x nw b (0 * 256 + j.val) g c := by
  by_cases h : 3 ≤ j.val
  · exact scratchRow_ge x nw X NW b 0 (by decide) hX hN j g c h
  · rw [scratchRow_lt X NW j g c (by omega), xpad_lt x nw b _ g c (by omega)]

/-- The rows a point carries over are the padded rows just past its tile. -/
theorem SC_lt (hX : ∀ (r : Fin 256) (g : Fin 4) (c : Fin 1024), X (ix4 (0 : Fin 1) r g c) = x (ix4 b (trow τ hτ r) g c))
    (hN : ∀ (g : Fin 4) (c : Fin 1024), NW (ix2 g c) = nw (ix2 g c)) (j : Fin 259) (g : Fin 4) (c : Fin 1024) (h : j.val < 3) :
    SC X NW (ix3 j g c) = xpad x nw b (τ * 256 + 256 + j.val) g c := by
  unfold SC
  rw [dif_neg (show ¬ 3 ≤ j.val by omega)]
  have e := scratchRow_ge x nw X NW b τ hτ hX hN ⟨256 + j.val, by omega⟩ g c (by show 3 ≤ 256 + j.val; omega)
  rw [show (τ * 256 + 256 + j.val) = τ * 256 + (256 + j.val) by omega]
  exact e

/-- On a later tile, with the rows carried from the tile before under rows 0 … 2, the scratch during the convolution is
    rows τ·256 … τ·256 + 258 of the padded array. -/
theorem EB_eq (P : BS.Idx → EReal)
    (hP : ∀ (j : Fin 259) (g : Fin 4) (c : Fin 1024), j.val < 3 → P (ix3 j g c) = xpad x nw b (τ * 256 + j.val) g c)
    (hX : ∀ (r : Fin 256) (g : Fin 4) (c : Fin 1024), X (ix4 (0 : Fin 1) r g c) = x (ix4 b (trow τ hτ r) g c))
    (hN : ∀ (g : Fin 4) (c : Fin 1024), NW (ix2 g c) = nw (ix2 g c)) (j : Fin 259) (g : Fin 4) (c : Fin 1024) :
    EB P X NW (ix3 j g c) = xpad x nw b (τ * 256 + j.val) g c := by
  unfold EB
  by_cases h : 3 ≤ j.val
  · rw [if_pos (show 3 ≤ j.val from h)]; exact scratchRow_ge x nw X NW b τ hτ hX hN j g c h
  · rw [if_neg (show ¬ 3 ≤ j.val from h)]; exact hP j g c (by omega)

/-- The output block over a scratch that holds the padded rows is the specification's result on the tile. -/
theorem G3_eq (E : BS.Idx → EReal)
    (hE : ∀ (j : Fin 259) (g : Fin 4) (c : Fin 1024), E (ix3 j g c) = xpad x nw b (τ * 256 + j.val) g c)
    (hW : ∀ (k : Fin 4) (g : Fin 4) (c : Fin 1024), W (ix3 k g c) = tap w g c k) (r : Fin 256) (g : Fin 4) (c : Fin 1024) :
    G3 E W (ix4 (0 : Fin 1) r g c) = outAt x nw w b (trow τ hτ r) g c := by
  unfold G3 outAt conv
  have hr : r.val < 256 := r.isLt
  show silu (((E (ix3 ⟨r.val, by omega⟩ g c) * W (ix3 (0 : Fin 4) g c) + E (ix3 ⟨r.val + 1, by omega⟩ g c) * W (ix3 (1 : Fin 4) g c))
      + E (ix3 ⟨r.val + 2, by omega⟩ g c) * W (ix3 (2 : Fin 4) g c)) + E (ix3 ⟨r.val + 3, by omega⟩ g c) * W (ix3 (3 : Fin 4) g c)) = _
  rw [hE, hE, hE, hE, hW, hW, hW, hW]
  show _ = silu (((xpad x nw b (τ * 256 + r.val) g c * tap w g c 0 + xpad x nw b (τ * 256 + r.val + 1) g c * tap w g c 1)
      + xpad x nw b (τ * 256 + r.val + 2) g c * tap w g c 2) + xpad x nw b (τ * 256 + r.val + 3) g c * tap w g c 3)
  rfl

end Cert.ShortConv.Ker

end
-- ==== Proof.KFinal.lean ====
/-
  The idealized kernel ends with the specification's array.

  Point by point: the scratch a point leaves holds its tile's normalized rows, the last three of them under rows 0 … 2; so
  at every point the scratch during the convolution is the padded normalized array's rows τ·256 … τ·256 + 258 of the point's
  batch — zeros under the first tile of a batch, the rows carried from the tile before (same batch, since the tile is not
  the first) otherwise — and the block the point writes back is the specification on its 256 rows. The blocks tile the
  result array, so after the run the array is the specification's.
-/
import proofs.«158120_j18262200943403_2_alg».proof.Proof.Patch.KernelIdealValue
import proofs.«158120_j18262200943403_2_alg».proof.Proof.KCases
import proofs.«158120_j18262200943403_2_alg».proof.Proof.KBlocks
import proofs.«158120_j18262200943403_2_alg».proof.Proof.KPoint

noncomputable section

namespace Cert.ShortConv.Ker

open Cert.KernelIdeal Cert.KernelIdeal.Gen Cert.KernelIdeal.GenP Idealize.ShloMosaic Idealize.ShloMosaic.TcCoe Idealize.SL.Sem
open Idealize.ShloMosaic.ValueIdx Cert.ShortConv
open Idealize.ShloMosaic.Pipeline (Dat)

variable (m : (ℓ : Loc nD τ sig) → Buf (Elt Ideal) ℓ) (ρ : Dev nD → PrngReg)

set_option maxHeartbeats 1000000 in
/-- The scratch after point `t`: its tile's normalized rows, the last three also under rows 0 … 2 — whatever the scratch
    held before. -/
theorem scratch_at (c : Dev nD) (t : Fin cfg0.N) :
    (outsAt0 m c t.val t.isLt).2 = SC (iblk m c 0 t : Vec Ideal S1x256x4x1024 .f32) (iblk m c 1 t : Vec Ideal S4x1024 .f32) := by
  by_cases h0 : t.val % 8 = 0
  · rw [outsAt0_A m c t h0]; dsimp only
    exact sout0_A_0_eq c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) ((hcond0_0 t).mpr h0)
  · rw [outsAt0_B m c t h0]; dsimp only
    exact sout0_B_0_eq c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (fun h => h0 ((hcond0_0 t).mp h)) (outsAt0 m c (t.val - 1) (Nat.lt_of_le_of_lt (Nat.sub_le _ _) t.isLt)).2

set_option maxHeartbeats 1000000 in
/-- The block point `t` leaves for the result: the specification on the point's batch and rows. -/
theorem out_point (c : Dev nD) (t : Fin cfg0.N) (r : Fin 256) (g : Fin 4) (cc : Fin 1024) :
    (outsAt0 m c t.val t.isLt).1 (ix4 (0 : Fin 1) r g cc)
      = outAt (m ((c : Thread nD τ).loc main_arg0)) (m ((c : Thread nD τ).loc main_arg1)) (m ((c : Thread nD τ).loc main_arg2))
          (pointBatch t) (pointRow t r) g cc := by
  have hN32 : t.val < 32 := point_lt t
  have hτ : t.val % 8 < 8 := Nat.mod_lt _ (by decide)
  have hX : ∀ (r : Fin 256) (g : Fin 4) (cc : Fin 1024), (iblk m c 0 t : Vec Ideal S1x256x4x1024 .f32) (ix4 (0 : Fin 1) r g cc)
      = (m ((c : Thread nD τ).loc main_arg0) : SX.Idx → EReal) (ix4 (pointBatch t) (trow (t.val % 8) hτ r) g cc) :=
    fun r g cc => xblk_at m c t r g cc
  have hNW : ∀ (g : Fin 4) (cc : Fin 1024), (iblk m c 1 t : Vec Ideal S4x1024 .f32) (ix2 g cc)
      = (m ((c : Thread nD τ).loc main_arg1) : SN.Idx → EReal) (ix2 g cc) := fun g cc => nblk_at m c t g cc
  have hW : ∀ (k : Fin 4) (g : Fin 4) (cc : Fin 1024), (iblk m c 2 t : Vec Ideal S4x4x1024 .f32) (ix3 k g cc)
      = tap (m ((c : Thread nD τ).loc main_arg2)) g cc k := fun k g cc => wblk_at m c t k g cc
  by_cases h0 : t.val % 8 = 0
  · refine (congrFun (congrArg Prod.fst (outsAt0_A m c t h0)) _).trans ?_
    refine (congrFun (out0_A_3_eq c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) ((hcond0_0 t).mpr h0)) _).trans ?_
    refine G3_eq _ _ _ _ (pointBatch t) (t.val % 8) hτ _ (fun j g cc => ?_) hW r g cc
    by_cases h3 : 3 ≤ j.val
    · exact scratchRow_ge _ _ _ _ (pointBatch t) (t.val % 8) hτ hX hNW j g cc h3
    · rw [scratchRow_lt _ _ j g cc (by omega), xpad_lt _ _ _ _ g cc (by omega)]
  · have hlt : t.val - 1 < cfg0.N := Nat.lt_of_le_of_lt (Nat.sub_le _ _) t.isLt
    refine (congrFun (congrArg Prod.fst (outsAt0_B m c t h0)) _).trans ?_
    refine (congrFun (out0_B_3_eq c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (fun h => h0 ((hcond0_0 t).mp h)) (outsAt0 m c (t.val - 1) (Nat.lt_of_le_of_lt (Nat.sub_le _ _) t.isLt)).2) _).trans ?_
    refine G3_eq _ _ _ _ (pointBatch t) (t.val % 8) hτ _ (fun j g cc => ?_) hW r g cc
    refine EB_eq _ _ _ _ (pointBatch t) (t.val % 8) hτ _ (fun j g cc hj => ?_) hX hNW j g cc
    -- the carried rows: what the point before left under rows 0 … 2
    have hP : (outsAt0 m c (t.val - 1) hlt).2 = SC (iblk m c 0 ⟨t.val - 1, hlt⟩ : Vec Ideal S1x256x4x1024 .f32) (iblk m c 1 ⟨t.val - 1, hlt⟩ : Vec Ideal S4x1024 .f32) :=
      scratch_at m c ⟨t.val - 1, hlt⟩
    rw [hP]
    have hτ' : (t.val - 1) % 8 < 8 := Nat.mod_lt _ (by decide)
    have hb : pointBatch (⟨t.val - 1, hlt⟩ : Fin cfg0.N) = pointBatch t := Fin.ext (by show (t.val - 1) / 8 = t.val / 8; omega)
    have hX' : ∀ (r : Fin 256) (g : Fin 4) (cc : Fin 1024), (iblk m c 0 ⟨t.val - 1, hlt⟩ : Vec Ideal S1x256x4x1024 .f32) (ix4 (0 : Fin 1) r g cc)
        = (m ((c : Thread nD τ).loc main_arg0) : SX.Idx → EReal) (ix4 (pointBatch t) (trow ((t.val - 1) % 8) hτ' r) g cc) :=
      fun r g cc => (xblk_at m c ⟨t.val - 1, hlt⟩ r g cc).trans (by rw [hb])
    have hNW' : ∀ (g : Fin 4) (cc : Fin 1024), (iblk m c 1 ⟨t.val - 1, hlt⟩ : Vec Ideal S4x1024 .f32) (ix2 g cc)
        = (m ((c : Thread nD τ).loc main_arg1) : SN.Idx → EReal) (ix2 g cc) := fun g cc => nblk_at m c ⟨t.val - 1, hlt⟩ g cc
    rw [SC_lt _ _ _ _ (pointBatch t) ((t.val - 1) % 8) hτ' hX' hNW' j g cc hj]
    exact congrArg (fun n => xpad _ _ (pointBatch t) n g cc) (by omega)

/-- What point `t` writes back is the specification's block. -/
theorem flushed_eq (c : Dev nD) (t : Fin cfg0.N) :
    (dats m 0 c).flushed 3 t = ((cfg0.win 3).blk t).view.read (Elt Ideal)
      (out (m ((c : Thread nD τ).loc main_arg0)) (m ((c : Thread nD τ).loc main_arg1)) (m ((c : Thread nD τ).loc main_arg2))) := by
  rw [Cert.KernelIdeal.ValueP.flushed3 m c t]
  funext y
  show (outsAt0 m c t.val t.isLt).1 y
    = out (m ((c : Thread nD τ).loc main_arg0)) (m ((c : Thread nD τ).loc main_arg1)) (m ((c : Thread nD τ).loc main_arg2)) (((cfg0.win 3).blk t).view.emb y)
  obtain ⟨r, g, cc, rfl⟩ : ∃ (r : Fin 256) (g : Fin 4) (cc : Fin 1024), y = (ix4 (0 : Fin 1) r g cc : S1x256x4x1024.Idx) :=
    ⟨y 1, y 2, y 3, funext fun a => by
      match a with
      | ⟨0, _⟩ => exact Fin.ext (Nat.lt_one_iff.mp (show (y 0).val < 1 from (y 0).isLt))
      | ⟨1, _⟩ => rfl
      | ⟨2, _⟩ => rfl
      | ⟨3, _⟩ => rfl⟩
  rw [oemb t r g cc, out_ix4]
  exact out_point m c t r g cc

/-- After the run the result array is the specification of the arguments. -/
theorem final (c : Dev nD) : (dats m 0 c).arrAt 3 cfg0.N
    = out (m ((c : Thread nD τ).loc main_arg0)) (m ((c : Thread nD τ).loc main_arg1)) (m ((c : Thread nD τ).loc main_arg2)) :=
  (dats m 0 c).arrAt_eq_of_cover 3 _ (fun t _ => flushed_eq m c t) (fun i => ocover i)

/-- The idealized kernel's run: the result is the specification of the arguments, and the arguments are unchanged. -/
theorem run : θ_run defs (onTc (τ := τ) (main (F := Ideal))) ⟨m, fun _ => 0, ρ⟩ fun r => ∀ c : Dev nD,
      r.2.mem ((c : Thread nD τ).loc main_v2)
        = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.ValueP.run_blocks m ρ)

end Cert.ShortConv.Ker

end
-- ==== Proof.lean ====
/-
  The certificate of the short convolution: a causal four-tap depthwise convolution along time of an input normalized row
  by row by the root of its mean square, followed by y · logistic y, computed by a kernel that walks the time axis tile by
  tile and carries the last three normalized rows of a tile to the next one in a scratch buffer, against the same
  computation written with a zero-padded array and four shifted slices.

  * The three frames. The two kernel programs run to the end with their arguments unchanged by the frame certificates of
    their bodies (one case for a batch's first time tile, where the carried rows are zeroed, one for the others); the
    reference's frame is its run with the result dropped.
  * The idealization rewrote nothing, so the kernel's idealization is the kernel's own text read on the extended reals.
  * On the extended reals both programs compute ONE function of the three arguments, index by index
    (`Cert.ShortConv.out`, Proof/Spec.lean): the kernel block by block (Proof/KFinal.lean), the reference operation by
    operation (Proof/RefOut.lean). No algebraic law is needed beyond reading both sides at an index: the two programs
    multiply and add in the same order, the kernel's logistic is the reference's 1 / (1 + exp (−y)) by definition, and the
    carried rows are exactly the padded array's rows under the tile's first three outputs.
-/
import proofs.«158120_j18262200943403_2_alg».proof.Defs
import proofs.«158120_j18262200943403_2_alg».proof.Proof.Gen.Kernel
import proofs.«158120_j18262200943403_2_alg».proof.Proof.Gen.KernelIdeal
import proofs.«158120_j18262200943403_2_alg».proof.Proof.Gen.ReferenceIdeal
import proofs.«158120_j18262200943403_2_alg».proof.Proof.Gen.Pre_finite_inputs
import proofs.«158120_j18262200943403_2_alg».proof.Proof.Gen.ReferenceIdeal.Run
import proofs.«158120_j18262200943403_2_alg».proof.Proof.Gen.ReferenceIdeal.Read
import proofs.«158120_j18262200943403_2_alg».proof.Proof.Patch.KernelFrame
import proofs.«158120_j18262200943403_2_alg».proof.Proof.Patch.KernelIdealFrame
import proofs.«158120_j18262200943403_2_alg».proof.Proof.RefOut
import proofs.«158120_j18262200943403_2_alg».proof.Proof.KFinal
import Idealize.ShloMosaic.Adequacy
import Idealize.ShloMosaic.Init

noncomputable section

namespace Cert.Proof

open Idealize.ShloMosaic Idealize.SL.Sem

/-- The kernel as printed runs to the end and leaves its arguments as they were. -/
theorem frame_k : @Cert.frame_Kernel Cert.Kernel.Gen.facts Cert.Pre_finite_inputs.Gen.facts :=
  fun m ρ _ => Cert.Kernel.GenP.frame m ρ

/-- So does its idealization. -/
theorem frame_ki : @Cert.frame_KernelIdeal Cert.KernelIdeal.Gen.facts Cert.Pre_finite_inputs.Gen.facts :=
  fun m ρ _ => Cert.KernelIdeal.GenP.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the arguments both idealized programs end with `Cert.ShortConv.out` of them. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ShortConv.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.ShortConv.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ShortConv.Ref.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
